-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S128x4 : Shape := ⟨2, ![128, 4]⟩
abbrev S128x128 : Shape := ⟨2, ![128, 128]⟩
abbrev S128 : Shape := ⟨1, ![128]⟩
abbrev S132x132 : Shape := ⟨2, ![132, 132]⟩
abbrev S132 : Shape := ⟨1, ![132]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S132x132 : S_.BroadcastsInDim S132x132 (![] : Fin 0 → Fin S132x132.rank)
  reducesTo_S132x132_S_d0_1 : S132x132.ReducesTo [0, 1] S_
  bcast_S_S132 : S_.BroadcastsInDim S132 (![] : Fin 0 → Fin S132.rank)
  reducesTo_S132_S_d0 : S132.ReducesTo [0] S_

variable [Facts]

def fn_part1 {F : FTy → Type} [FloatOps F] (main_arg5 : FVec F S132x132 .f32) (main_arg6 : FVec F S132 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S132x132 .f32 := Host.absf main_arg5
  let main_cst_6 : FVec F S_ .f32 := constant S_ .f32 0x7F800000#32
  let main_v20 : FVec F S132x132 .f32 := broadcastInDim S132x132 ![] bcast_S_S132x132 main_cst_6
  let main_v21 : IVec S132x132 1 := cmpf .olt main_v19 main_v20
  let main_c_7 : IVec S_ 1 := constantI S_ 1 1#1
  let main_v22 : IVec S_ 1 := (fun x v => Host.reduce IntOp.andi x v reducesTo_S132x132_S_d0_1 h_S_) main_v21 main_c_7
  let main_v23 : IVec S_ 1 := andi main_v18 main_v22
  let main_v24 : FVec F S132 .f32 := Host.absf main_arg6
  let main_cst_8 : FVec F S_ .f32 := constant S_ .f32 0x7F800000#32
  let main_v25 : FVec F S132 .f32 := broadcastInDim S132 ![] bcast_S_S132 main_cst_8
  let main_v26 : IVec S132 1 := cmpf .olt main_v24 main_v25
  let main_c_9 : IVec S_ 1 := constantI S_ 1 1#1
  let main_v27 : IVec S_ 1 := (fun x v => Host.reduce IntOp.andi x v reducesTo_S132_S_d0 h_S_) main_v26 main_c_9
  let main_v28 : IVec S_ 1 := andi main_v23 main_v27
  main_v28

def fn {F : FTy → Type} [FloatOps F] (main_arg0 : IVec S2x800000 32) (main_arg1 : FVec F S50000x128 .f32) (main_arg2 : FVec F S128x4 .f32) (main_arg3 : FVec F S128x128 .f32) (main_arg4 : FVec F S128 .f32) (main_arg5 : FVec F S132x132 .f32) (main_arg6 : FVec F S132 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x800000 : Shape := ⟨2, ![2, 800000]⟩
abbrev S50000x128 : Shape := ⟨2, ![50000, 128]⟩
abbrev S128x4 : Shape := ⟨2, ![128, 4]⟩
abbrev S128x128 : Shape := ⟨2, ![128, 128]⟩
abbrev S128 : Shape := ⟨1, ![128]⟩
abbrev S132x132 : Shape := ⟨2, ![132, 132]⟩
abbrev S132 : Shape := ⟨1, ![132]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S128x132 : Shape := ⟨2, ![128, 132]⟩
abbrev S50000x132 : Shape := ⟨2, ![50000, 132]⟩
abbrev S5000x128 : Shape := ⟨2, ![5000, 128]⟩
abbrev S5000x132 : Shape := ⟨2, ![5000, 132]⟩
abbrev S50000x4 : Shape := ⟨2, ![50000, 4]⟩
abbrev S800000x128 : Shape := ⟨2, ![800000, 128]⟩
abbrev S1x128 : Shape := ⟨2, ![1, 128]⟩
abbrev S4x132 : Shape := ⟨2, ![4, 132]⟩
abbrev S5000x1 : Shape := ⟨2, ![5000, 1]⟩
abbrev S5000x4 : Shape := ⟨2, ![5000, 4]⟩
abbrev S800000x132 : Shape := ⟨2, ![800000, 132]⟩
abbrev S1x132 : Shape := ⟨2, ![1, 132]⟩
abbrev S50000x136 : Shape := ⟨2, ![50000, 136]⟩
abbrev S5000x136 : Shape := ⟨2, ![5000, 136]⟩

abbrev nBuf : Space → Nat
  | .hbm => 83
  | .vmem => 29
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S128x4, .f32⟩
  | .hbm, ⟨3, _⟩ => ⟨S128x128, .f32⟩
  | .hbm, ⟨4, _⟩ => ⟨S128, .f32⟩
  | .hbm, ⟨5, _⟩ => ⟨S132x132, .f32⟩
  | .hbm, ⟨6, _⟩ => ⟨S132, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S50000x1, .f32⟩
  | .hbm, ⟨41, _⟩ => ⟨S128x132, .f32⟩
  | .hbm, ⟨42, _⟩ => ⟨S50000x132, .f32⟩
  | .hbm, ⟨43, _⟩ => ⟨S50000x128, .f32⟩
  | .hbm, ⟨44, _⟩ => ⟨S50000x4, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S1x128, .f32⟩
  | .hbm, ⟨62, _⟩ => ⟨S128x132, .f32⟩
  | .hbm, ⟨63, _⟩ => ⟨S4x132, .f32⟩
  | .hbm, ⟨64, _⟩ => ⟨S50000x132, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x132, .f32⟩
  | .hbm, ⟨74, _⟩ => ⟨S800000x1, .f32⟩
  | .hbm, ⟨75, _⟩ => ⟨S800000x132, .f32⟩
  | .hbm, ⟨76, _⟩ => ⟨S800000x132, .f32⟩
  | .hbm, ⟨77, _⟩ => ⟨S_, .f32⟩
  | .hbm, ⟨78, _⟩ => ⟨S50000x132, .f32⟩
  | .hbm, ⟨79, _⟩ => ⟨S800000x1, .i32⟩
  | .hbm, ⟨80, _⟩ => ⟨S50000x132, .f32⟩
  | .hbm, ⟨81, _⟩ => ⟨S1x132, .f32⟩
  | .hbm, ⟨82, _⟩ => ⟨S50000x136, .f32⟩
  | .local _ .vmem, ⟨0, _⟩ => ⟨S5000x128, .f32⟩
  | .local _ .vmem, ⟨1, _⟩ => ⟨S5000x128, .f32⟩
  | .local _ .vmem, ⟨2, _⟩ => ⟨S128x132, .f32⟩
  | .local _ .vmem, ⟨3, _⟩ => ⟨S5000x132, .f32⟩
  | .local _ .vmem, ⟨4, _⟩ => ⟨S5000x132, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x4, .f32⟩
  | .local _ .vmem, ⟨13, _⟩ => ⟨S5000x4, .f32⟩
  | .local _ .vmem, ⟨14, _⟩ => ⟨S128x132, .f32⟩
  | .local _ .vmem, ⟨15, _⟩ => ⟨S4x132, .f32⟩
  | .local _ .vmem, ⟨16, _⟩ => ⟨S5000x132, .f32⟩
  | .local _ .vmem, ⟨17, _⟩ => ⟨S5000x132, .f32⟩
  | .local _ .vmem, ⟨18, _⟩ => ⟨S5000x132, .f32⟩
  | .local _ .vmem, ⟨19, _⟩ => ⟨S5000x132, .f32⟩
  | .local _ .vmem, ⟨20, _⟩ => ⟨S5000x132, .f32⟩
  | .local _ .vmem, ⟨21, _⟩ => ⟨S5000x132, .f32⟩
  | .local _ .vmem, ⟨22, _⟩ => ⟨S5000x1, .f32⟩
  | .local _ .vmem, ⟨23, _⟩ => ⟨S5000x1, .f32⟩
  | .local _ .vmem, ⟨24, _⟩ => ⟨S1x132, .f32⟩
  | .local _ .vmem, ⟨25, _⟩ => ⟨S5000x4, .f32⟩
  | .local _ .vmem, ⟨26, _⟩ => ⟨S5000x4, .f32⟩
  | .local _ .vmem, ⟨27, _⟩ => ⟨S5000x136, .f32⟩
  | .local _ .vmem, ⟨28, _⟩ => ⟨S5000x136, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x132 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x132 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x132 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x132 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x132 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x132 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x132 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x136 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  concatenates_S128x128_S128x4_S128x132_d1 : Shape.Concatenates [S128x128, S128x4] S128x132 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x132_S128x132_0_0 : ∀ a, (![0, 0] : Fin 2 → Nat) a + S128x132.size a ≤ S128x132.size a
  h_S128x132 : 0 < S128x132.numel
  shapeCasts_S128x132_S128x132 : S128x132.ShapeCasts S128x132
  inb_S5000x132_S5000x132_0_0 : ∀ a, (![0, 0] : Fin 2 → Nat) a + S5000x132.size a ≤ S5000x132.size a
  h_S5000x132 : 0 < S5000x132.numel
  slices_S50000x132_S50000x128_0_0 : S50000x132.Slices ![0, 0] S50000x128
  slices_S50000x132_S50000x4_0_128 : S50000x132.Slices ![0, 128] S50000x4
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  slices_S132x132_S128x132_0_0 : S132x132.Slices ![0, 0] S128x132
  slices_S132x132_S4x132_128_0 : S132x132.Slices ![128, 0] S4x132
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  inb_S4x132_S4x132_0_0 : ∀ a, (![0, 0] : Fin 2 → Nat) a + S4x132.size a ≤ S4x132.size a
  h_S4x132 : 0 < S4x132.numel
  shapeCasts_S4x132_S4x132 : S4x132.ShapeCasts S4x132
  bcast_S800000x1_S800000x132_0_1 : S800000x1.BroadcastsInDim S800000x132 (![0, 1] : Fin 2 → Fin S800000x132.rank)
  bcast_S_S50000x132 : S_.BroadcastsInDim S50000x132 (![] : Fin 0 → Fin S50000x132.rank)
  shapeCasts_S132_S1x132 : S132.ShapeCasts S1x132
  shapeCasts_S5000x132_S5000x132 : S5000x132.ShapeCasts S5000x132
  broadcasts_S5000x1_S5000x132 : S5000x1.Broadcasts S5000x132
  inb_S1x132_S1x132_0_0 : ∀ a, (![0, 0] : Fin 2 → Nat) a + S1x132.size a ≤ S1x132.size a
  h_S1x132 : 0 < S1x132.numel
  shapeCasts_S1x132_S1x132 : S1x132.ShapeCasts S1x132
  broadcasts_S1x132_S5000x132 : S1x132.Broadcasts S5000x132
  concatenates_S5000x132_S5000x4_S5000x136_d1 : Shape.Concatenates [S5000x132, S5000x4] S5000x136 1
  inb_S5000x136_S5000x136_0_0 : ∀ a, (![0, 0] : Fin 2 → Nat) a + S5000x136.size a ≤ S5000x136.size a
  h_S5000x136 : 0 < S5000x136.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x132_S5000x132_1_0_0_1_n_n_wf : DotDims.WF S5000x128 S128x132 S5000x132 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x4_S4x132_S5000x132_1_0_0_1_n_n_wf : DotDims.WF S5000x4 S4x132 S5000x132 [1] [0] [0] [1] [] []
  gather_S50000x132_S800000x1_S800000x132_1_0_n_n_0_1_1132_wf : GatherDims.WF S50000x132 S800000x1 S800000x132 [1] [0] [] [0] [] 1 ![1, 132]
  scatter_S50000x132_S800000x1_S800000x132_1_0_0_1_wf : ScatterDims.WF S50000x132 S800000x1 S800000x132 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x132.size a ≤ S128x132.size a
  hwx0_1 : ∀ i : grid0.Coords, EltTy.bits .f32 = 32 ∨ (Rect.block (s := S128x132) S128x132.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x132.size a ≤ S50000x132.size a
  hwx0_2 : ∀ i : grid0.Coords, EltTy.bits .f32 = 32 ∨ (Rect.block (s := S50000x132) S5000x132.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x4.size a ≤ S50000x4.size a
  hwx1_4 : ∀ i : grid1.Coords, EltTy.bits .f32 = 32 ∨ (Rect.block (s := S50000x4) S5000x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x132.size a ≤ S128x132.size a
  hwx1_5 : ∀ i : grid1.Coords, EltTy.bits .f32 = 32 ∨ (Rect.block (s := S128x132) S128x132.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x132.size a ≤ S4x132.size a
  hwx1_6 : ∀ i : grid1.Coords, EltTy.bits .f32 = 32 ∨ (Rect.block (s := S4x132) S4x132.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x132.size a ≤ S50000x132.size a
  hwx1_7 : ∀ i : grid1.Coords, EltTy.bits .f32 = 32 ∨ (Rect.block (s := S50000x132) S5000x132.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x132.size a ≤ S50000x132.size a
  hwx2_0 : ∀ i : grid2.Coords, EltTy.bits .f32 = 32 ∨ (Rect.block (s := S50000x132) S5000x132.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x132.size a ≤ S50000x132.size a
  hwx2_1 : ∀ i : grid2.Coords, EltTy.bits .f32 = 32 ∨ (Rect.block (s := S50000x132) S5000x132.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x132.size a ≤ S1x132.size a
  hwx2_3 : ∀ i : grid2.Coords, EltTy.bits .f32 = 32 ∨ (Rect.block (s := S1x132) S1x132.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x4.size a ≤ S50000x4.size a
  hwx2_4 : ∀ i : grid2.Coords, EltTy.bits .f32 = 32 ∨ (Rect.block (s := S50000x4) S5000x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x136.size a ≤ S50000x136.size a
  hwx2_5 : ∀ i : grid2.Coords, EltTy.bits .f32 = 32 ∨ (Rect.block (s := S50000x136) S5000x136.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x132_S5000x132_1_0_0_1_n_n : DotDims S5000x128 S128x132 S5000x132 where
  lhsContracting := [1]
  rhsContracting := [0]
  lhsNonContracting := [0]
  rhsNonContracting := [1]
  lhsBatch := []
  rhsBatch := []
  wf := dot_S5000x128_S128x132_S5000x132_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x4_S4x132_S5000x132_1_0_0_1_n_n : DotDims S5000x4 S4x132 S5000x132 where
  lhsContracting := [1]
  rhsContracting := [0]
  lhsNonContracting := [0]
  rhsNonContracting := [1]
  lhsBatch := []
  rhsBatch := []
  wf := dot_S5000x4_S4x132_S5000x132_1_0_0_1_n_n_wf
def gather_S50000x132_S800000x1_S800000x132_1_0_n_n_0_1_1132 : GatherDims S50000x132 S800000x1 S800000x132 where
  offsetDims := [1]
  collapsedSliceDims := [0]
  operandBatchingDims := []
  startIndicesBatchingDims := []
  startIndexMap := [0]
  indexVectorDim := 1
  sliceSizes := ![1, 132]
  wf := gather_S50000x132_S800000x1_S800000x132_1_0_n_n_0_1_1132_wf
def scatter_S50000x132_S800000x1_S800000x132_1_0_0_1 : ScatterDims S50000x132 S800000x1 S800000x132 where
  updateWindowDims := [1]
  insertedWindowDims := [0]
  scatterDimsToOperandDims := [0]
  indexVectorDim := 1
  wf := scatter_S50000x132_S800000x1_S800000x132_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x132.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x132.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x4.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45) S128x132.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S4x132.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S5000x132.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v60) S5000x132.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x132.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x132.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S5000x4.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x136.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S128x4 : Shape := ⟨2, ![128, 4]⟩
abbrev S128x128 : Shape := ⟨2, ![128, 128]⟩
abbrev S128 : Shape := ⟨1, ![128]⟩
abbrev S132x132 : Shape := ⟨2, ![132, 132]⟩
abbrev S132 : Shape := ⟨1, ![132]⟩
abbrev S1x800000 : Shape := ⟨2, ![1, 800000]⟩
abbrev S800000 : Shape := ⟨1, ![800000]⟩
abbrev S50000x4 : Shape := ⟨2, ![50000, 4]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x132 : Shape := ⟨2, ![50000, 132]⟩
abbrev S800000x132 : Shape := ⟨2, ![800000, 132]⟩
abbrev S1x132 : Shape := ⟨2, ![1, 132]⟩
abbrev S50000x136 : Shape := ⟨2, ![50000, 136]⟩

abbrev nBuf : Space → Nat
  | .hbm => 129
  | .vmem => 0
  | .smem => 0
  | _ => 0

abbrev hbmTy0_0 (i : Nat) : BufTy := match i % 128 with
  | 0 => ⟨S2x800000, .i32⟩
  | 1 => ⟨S50000x128, .f32⟩
  | 2 => ⟨S128x4, .f32⟩
  | 3 => ⟨S128x128, .f32⟩
  | 4 => ⟨S128, .f32⟩
  | 5 => ⟨S132x132, .f32⟩
  | 6 => ⟨S132, .f32⟩
  | 7 => ⟨S1x800000, .i32⟩
  | 8 => ⟨S800000, .i32⟩
  | 9 => ⟨S1x800000, .i32⟩
  | 10 => ⟨S800000, .i32⟩
  | 11 => ⟨S50000x4, .f32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x128, .f32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x132, .f32⟩
  | 72 => ⟨S50000x132, .f32⟩
  | 73 => ⟨S_, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S800000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x132, .f32⟩
  | 112 => ⟨S800000x132, .f32⟩
  | 113 => ⟨S800000x132, .f32⟩
  | 114 => ⟨S_, .f32⟩
  | 115 => ⟨S50000x132, .f32⟩
  | 116 => ⟨S800000x1, .i32⟩
  | 117 => ⟨S50000x132, .f32⟩
  | 118 => ⟨S_, .f32⟩
  | 119 => ⟨S50000, .f32⟩
  | 120 => ⟨S50000, .f32⟩
  | 121 => ⟨S50000x1, .f32⟩
  | 122 => ⟨S50000x132, .f32⟩
  | 123 => ⟨S50000x132, .f32⟩
  | 124 => ⟨S50000x132, .f32⟩
  | 125 => ⟨S1x132, .f32⟩
  | 126 => ⟨S50000x132, .f32⟩
  | 127 => ⟨S50000x132, .f32⟩
  | _ => ⟨S2x800000, .i32⟩

abbrev hbmTy0_1 (i : Nat) : BufTy := match i % 128 with
  | 0 => ⟨S50000x136, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_12 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_c_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_16 : Ref sig .tc := ⟨.hbm, 103, rfl⟩
abbrev main_v76 : Ref sig .tc := ⟨.hbm, 104, rfl⟩
abbrev main_v77 : Ref sig .tc := ⟨.hbm, 105, rfl⟩
abbrev main_c_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x4_S50000x132_d1 : Shape.Concatenates [S50000x128, S50000x4] S50000x132 1
  bcast_S800000x1_S800000x132_0_1 : S800000x1.BroadcastsInDim S800000x132 (![0, 1] : Fin 2 → Fin S800000x132.rank)
  bcast_S_S50000x132 : S_.BroadcastsInDim S50000x132 (![] : Fin 0 → Fin S50000x132.rank)
  bcast_S50000x1_S50000x132_0_1 : S50000x1.BroadcastsInDim S50000x132 (![0, 1] : Fin 2 → Fin S50000x132.rank)
  bcast_S132_S1x132_1 : S132.BroadcastsInDim S1x132 (![1] : Fin 1 → Fin S1x132.rank)
  bcast_S1x132_S50000x132_0_1 : S1x132.BroadcastsInDim S50000x132 (![0, 1] : Fin 2 → Fin S50000x132.rank)
  concatenates_S50000x132_S50000x4_S50000x136_d1 : Shape.Concatenates [S50000x132, S50000x4] S50000x136 1
  dot_S50000x128_S128x4_S50000x4_1_0_0_1_n_n_wf : DotDims.WF S50000x128 S128x4 S50000x4 [1] [0] [0] [1] [] []
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x132_S132x132_S50000x132_1_0_0_1_n_n_wf : DotDims.WF S50000x132 S132x132 S50000x132 [1] [0] [0] [1] [] []
  gather_S50000x132_S800000x1_S800000x132_1_0_n_n_0_1_1132_wf : GatherDims.WF S50000x132 S800000x1 S800000x132 [1] [0] [] [0] [] 1 ![1, 132]
  scatter_S50000x132_S800000x1_S800000x132_1_0_0_1_wf : ScatterDims.WF S50000x132 S800000x1 S800000x132 [1] [0] [0] 1

variable [Facts₀]

def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x132_S132x132_S50000x132_1_0_0_1_n_n : DotDims S50000x132 S132x132 S50000x132 where
  lhsContracting := [1]
  rhsContracting := [0]
  lhsNonContracting := [0]
  rhsNonContracting := [1]
  lhsBatch := []
  rhsBatch := []
  wf := dot_S50000x132_S132x132_S50000x132_1_0_0_1_n_n_wf
def gather_S50000x132_S800000x1_S800000x132_1_0_n_n_0_1_1132 : GatherDims S50000x132 S800000x1 S800000x132 where
  offsetDims := [1]
  collapsedSliceDims := [0]
  operandBatchingDims := []
  startIndicesBatchingDims := []
  startIndexMap := [0]
  indexVectorDim := 1
  sliceSizes := ![1, 132]
  wf := gather_S50000x132_S800000x1_S800000x132_1_0_n_n_0_1_1132_wf
def scatter_S50000x132_S800000x1_S800000x132_1_0_0_1 : ScatterDims S50000x132 S800000x1 S800000x132 where
  updateWindowDims := [1]
  insertedWindowDims := [0]
  scatterDimsToOperandDims := [0]
  indexVectorDim := 1
  wf := scatter_S50000x132_S800000x1_S800000x132_1_0_0_1_wf

class Facts : Prop extends Facts₀ where

variable [Facts]
-- ==== Proof.KRun.lean ====
/-
  The idealized kernel program's run with its result array named.

  The program is three pipelined regions, each after a stretch of host operations.  The generated frame folds the
  buffer contents through these six segments from the launch memory; its last boundary `W6` holds every unscoped
  buffer's final contents.  The frame only reads the argument arrays off that boundary; here the same run is read at the
  result array as well, so that the value proof can open `W6` at the result.
-/
import proofs.«118340_j2843268350769_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the argument arrays as launched. -/
theorem run_out : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Hand

end
-- ==== Proof.KHost0.lean ====
/-
  The host operations before the projection region, read at the buffers the later steps use.

  Before the first region the program slices the two rows of the edge list (sources and targets), counts each node's
  incoming edges and adds one for the self loop (the degree), takes its reciprocal square root, gathers it at both ends
  of every edge and multiplies (the edge coefficient), lays the degree out as a column, and joins the two first-layer
  weight matrices along the lanes.  The reference program computes the same edge rows, degree and coefficient with the
  same operations, so each of these buffers is stated as the reference's value of that step.
-/
import proofs.«118340_j2843268350769_2_alg».proof.Proof.Gen.KernelIdeal.Frame
import proofs.«118340_j2843268350769_2_alg».proof.Proof.Gen.ReferenceIdeal.Read

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ) (ρ : Dev nD → PrngReg) (c : Dev nD)

/-- The source row of the edge list. -/
theorem W1_v1 : W1 m ρ c (Proc.devRef .tc main_v1) = (Cert.ReferenceIdeal.Read.val_main_v1 (F := Ideal) (m ((c : Thread nD τ).loc main_arg0))) := by
  dsimp only [W1, hostOps0]
  after_results
  rfl

/-- The target row of the edge list. -/
theorem W1_v3 : W1 m ρ c (Proc.devRef .tc main_v3) = (Cert.ReferenceIdeal.Read.val_main_v3 (F := Ideal) (m ((c : Thread nD τ).loc main_arg0))) := by
  dsimp only [W1, hostOps0]
  after_results
  rfl

/-- The degree: incoming edges plus the self loop. -/
theorem W1_v9 : W1 m ρ c (Proc.devRef .tc main_v9) = (Cert.ReferenceIdeal.Read.val_main_v11 (F := Ideal) (m ((c : Thread nD τ).loc main_arg0))) := by
  dsimp only [W1, hostOps0]
  after_results
  rfl

set_option maxHeartbeats 4000000 in
/-- The edge coefficient: the reciprocal square roots of the degrees at the two ends, multiplied. -/
theorem W1_v25 : W1 m ρ c (Proc.devRef .tc main_v25) = (Cert.ReferenceIdeal.Read.val_main_v27 (F := Ideal) (m ((c : Thread nD τ).loc main_arg0))) := by
  dsimp only [W1, hostOps0]
  after_results_simp
  rfl

/-- The degree as a column. -/
theorem W1_v26 : W1 m ρ c (Proc.devRef .tc main_v26)
    = shapeCast S50000x1 (Cert.ReferenceIdeal.Read.val_main_v11 (F := Ideal) (m ((c : Thread nD τ).loc main_arg0))) shapeCasts_S50000_S50000x1 := by
  dsimp only [W1, hostOps0]
  after_results
  rfl

/-- The first layer's weights and the skip projection's, joined along the lanes. -/
theorem W1_v27 : W1 m ρ c (Proc.devRef .tc main_v27)
    = concatenate S128x132 1 [⟨S128x128, (m ((c : Thread nD τ).loc main_arg3))⟩, ⟨S128x4, (m ((c : Thread nD τ).loc main_arg2))⟩] concatenates_S128x128_S128x4_S128x132_d1 := by
  dsimp only [W1, hostOps0]
  after_results_simp
  rfl

/-- The feature matrix is untouched. -/
theorem W1_arg1 : W1 m ρ c (Proc.devRef .tc main_arg1) = (m ((c : Thread nD τ).loc main_arg1)) := by
  dsimp only [W1, hostOps0]
  after_results_simp

/-- An argument array no host operation writes. -/
theorem W1_arg4 : W1 m ρ c (Proc.devRef .tc main_arg4) = (m ((c : Thread nD τ).loc main_arg4)) := by
  dsimp only [W1, hostOps0]
  after_results_simp

/-- An argument array no host operation writes. -/
theorem W1_arg5 : W1 m ρ c (Proc.devRef .tc main_arg5) = (m ((c : Thread nD τ).loc main_arg5)) := by
  dsimp only [W1, hostOps0]
  after_results_simp

/-- An argument array no host operation writes. -/
theorem W1_arg6 : W1 m ρ c (Proc.devRef .tc main_arg6) = (m ((c : Thread nD τ).loc main_arg6)) := by
  dsimp only [W1, hostOps0]
  after_results_simp

end Cert.KernelIdeal.Hand

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibGcnLayer.lean ====
/-
  One graph-convolution layer, entry by entry, on the extended reals.

  A layer first multiplies every node's feature row by a weight matrix: entry (r, n) of the product is
  sum_k x(r, k) * w(k, n), a function of row r of x only.  It then adds, to the aggregated neighbour messages
  agg(r, n), the node's own row scaled by a per-node factor d(r), and a bias b(n):
  (agg(r, n) + d(r) * xw(r, n)) + b(n), followed on the hidden layers by a maximum with zero.  Entry (r, n)
  of that depends on entry (r, n) of agg and xw, on d(r) and on b(n) only.  Because of this a program that
  walks over blocks of rows computes the same array as one that works on whole matrices, and the two
  spellings met here (a matrix product accumulated into a zero splat on operands narrowed to bf16, against a
  dot_general; the factor as a column and the bias as a row, against both broadcast from vectors) read to
  the same functions.  Everything is generic in the extents.
-/
import proofs.«118340_j2843268350769_2_alg».proof.Proof.LibDense
import proofs.«118340_j2843268350769_2_alg».proof.Proof.LibLayout
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx

/-! ## The product with the weights -/

/-- Entry (r, n) of x times w: the sum over k of x(r, k) * w(k, n). -/
def lin (A K N : Nat) (x : FVec Ideal ⟨2, ![A, K]⟩ .f32) (w : FVec Ideal ⟨2, ![K, N]⟩ .f32) : FVec Ideal ⟨2, ![A, N]⟩ .f32 :=
  fun j => ∑ k : Fin K, x (ix2 (j 0 : Fin A) k) * w (ix2 k (j 1 : Fin N))

/-- A matrix product of operands narrowed to bf16, accumulated into a zero splat, is that sum: narrowing is the
    identity on extended reals and the zero accumulator adds nothing. -/
theorem lin_of_matmul {A K N : Nat} (x : FVec Ideal ⟨2, ![A, K]⟩ .f32) (w : FVec Ideal ⟨2, ![K, N]⟩ .f32)
    (hlt : FTy.bits .bf16 < FTy.bits .f32) :
    matmul (DotDims.plain A K N) none (truncf .bf16 x hlt) (truncf .bf16 w hlt) (constant ⟨2, ![A, N]⟩ .f32 0x00000000#32)
      = lin A K N x w := by
  funext j
  exact (Ideal.matmul_constant_zero_apply (DotDims.plain A K N) none (truncf .bf16 x hlt) (truncf .bf16 w hlt) j).trans
    (Cert.LibDense.plain_sum A K N x w j)

/-- The host's dot_general with the plain dimension numbers is the same sum. -/
theorem lin_of_dotGeneral {A K N : Nat} (x : FVec Ideal ⟨2, ![A, K]⟩ .f32) (w : FVec Ideal ⟨2, ![K, N]⟩ .f32) :
    Host.dotGeneral (DotDims.plain A K N) none x w = lin A K N x w := by
  funext j
  exact (Ideal.dotGeneral_apply (DotDims.plain A K N) none _ x w j).trans (Cert.LibDense.plain_sum A K N x w j)

/-- Entry (p, q) of the product depends on row p of the left factor and on column q of the right one only. -/
theorem lin_entry {A A' K N : Nat} (x : FVec Ideal ⟨2, ![A, K]⟩ .f32) (x' : FVec Ideal ⟨2, ![A', K]⟩ .f32)
    (w w' : FVec Ideal ⟨2, ![K, N]⟩ .f32) (p : Fin A) (r : Fin A') (q : Fin N)
    (hx : ∀ k : Fin K, x (ix2 p k) = x' (ix2 r k)) (hw : ∀ k : Fin K, w (ix2 k q) = w' (ix2 k q)) :
    lin A K N x w (ix2 p q) = lin A' K N x' w' (ix2 r q) := by
  show (∑ k : Fin K, x (ix2 p k) * w (ix2 k q)) = ∑ k : Fin K, x' (ix2 r k) * w' (ix2 k q)
  exact Finset.sum_congr rfl fun k _ => by rw [hx k, hw k]

/-! ## Messages, self term and bias -/

/-- Entry (r, n) of a layer before its activation, the per-node factor given as a column and the bias as a row:
    (agg(r, n) + d(r, 0) * xw(r, n)) + b(0, n). -/
def comb (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => (agg j + dcol (ix2 (j 0 : Fin A) (0 : Fin 1)) * xw j) + brow (ix2 (0 : Fin 1) (j 1 : Fin N))

/-- The same followed by the maximum with zero. -/
def combRelu (A N : Nat) (agg xw : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => max (comb A N agg xw dcol brow j) (Ideal.ofBits .f32 0x00000000#32)

/-- Entry (p, q) depends on entry (p, q) of the messages and of the product, on the factor of row p and on the
    bias of column q. -/
theorem comb_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    comb A N agg xw dcol brow (ix2 p q) = comb A' N agg' xw' dcol' brow' (ix2 r q) := by
  show (agg (ix2 p q) + dcol (ix2 p (0 : Fin 1)) * xw (ix2 p q)) + brow (ix2 (0 : Fin 1) q)
    = (agg' (ix2 r q) + dcol' (ix2 r (0 : Fin 1)) * xw' (ix2 r q)) + brow' (ix2 (0 : Fin 1) q)
  rw [h1, h2, h3, h4]

theorem combRelu_entry {A A' N : Nat} (agg xw : FVec Ideal ⟨2, ![A, N]⟩ .f32) (dcol : FVec Ideal ⟨2, ![A, 1]⟩ .f32)
    (brow brow' : FVec Ideal ⟨2, ![1, N]⟩ .f32) (agg' xw' : FVec Ideal ⟨2, ![A', N]⟩ .f32)
    (dcol' : FVec Ideal ⟨2, ![A', 1]⟩ .f32) (p : Fin A) (r : Fin A') (q : Fin N)
    (h1 : agg (ix2 p q) = agg' (ix2 r q)) (h2 : xw (ix2 p q) = xw' (ix2 r q))
    (h3 : dcol (ix2 p (0 : Fin 1)) = dcol' (ix2 r (0 : Fin 1))) (h4 : brow (ix2 (0 : Fin 1) q) = brow' (ix2 (0 : Fin 1) q)) :
    combRelu A N agg xw dcol brow (ix2 p q) = combRelu A' N agg' xw' dcol' brow' (ix2 r q) :=
  congrArg (max · (Ideal.ofBits .f32 0x00000000#32)) (comb_entry agg xw dcol brow brow' agg' xw' dcol' p r q h1 h2 h3 h4)

/-- A one-row array broadcast down the rows reads, at (p, q), the row's entry of column q. -/
theorem broadcastTo_1n_an_apply {A N : Nat} {α : Type} (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The hidden layers' body: identity casts of the loaded blocks, the factor's column broadcast along the rows, the
    bias row broadcast down them, a maximum with a splatted zero. -/
theorem combRelu_of_body {A N : Nat} (agg xw : FVec Ideal ⟨2, ![A, N]⟩ .f32) (dcol : FVec Ideal ⟨2, ![A, 1]⟩ .f32)
    (brow : FVec Ideal ⟨2, ![1, N]⟩ .f32)
    (hAN : (⟨2, ![A, N]⟩ : Shape).ShapeCasts ⟨2, ![A, N]⟩) (hA1 : (⟨2, ![A, 1]⟩ : Shape).ShapeCasts ⟨2, ![A, 1]⟩)
    (h1N : (⟨2, ![1, N]⟩ : Shape).ShapeCasts ⟨2, ![1, N]⟩)
    (hbd : (⟨2, ![A, 1]⟩ : Shape).Broadcasts ⟨2, ![A, N]⟩) (hbb : (⟨2, ![1, N]⟩ : Shape).Broadcasts ⟨2, ![A, N]⟩) :
    maximumf (addf (addf (shapeCast ⟨2, ![A, N]⟩ agg hAN)
        (mulf (broadcastTo ⟨2, ![A, N]⟩ (shapeCast ⟨2, ![A, 1]⟩ dcol hA1) hbd) (shapeCast ⟨2, ![A, N]⟩ xw hAN)))
        (broadcastTo ⟨2, ![A, N]⟩ (shapeCast ⟨2, ![1, N]⟩ brow h1N) hbb))
      (broadcast ⟨2, ![A, N]⟩ (Scalar.ofBits (F := Ideal) .f32 0x00000000#32))
      = combRelu A N agg xw dcol brow := by
  funext j
  obtain ⟨p, q, rfl⟩ : ∃ (p : Fin A) (q : Fin N), j = ix2 p q := ⟨j 0, j 1, eq_ix2 j⟩
  rw [shapeCast_self, shapeCast_self, shapeCast_self, shapeCast_self]
  show max ((agg (ix2 p q) + broadcastTo ⟨2, ![A, N]⟩ dcol hbd (ix2 p q) * xw (ix2 p q))
      + broadcastTo ⟨2, ![A, N]⟩ brow hbb (ix2 p q)) (Ideal.ofBits .f32 0x00000000#32) = _
  rw [Cert.LibLayout.broadcastTo_a1_ab_apply dcol hbd p q, broadcastTo_1n_an_apply brow hbb p q]
  rfl

/-- The last layer's body (one output column, no activation): the factor's column is already of the output's shape. -/
theorem comb_of_body {A : Nat} (agg xw dcol : FVec Ideal ⟨2, ![A, 1]⟩ .f32) (brow : FVec Ideal ⟨2, ![1, 1]⟩ .f32)
    (hA1 : (⟨2, ![A, 1]⟩ : Shape).ShapeCasts ⟨2, ![A, 1]⟩) (h11 : (⟨2, ![1, 1]⟩ : Shape).ShapeCasts ⟨2, ![1, 1]⟩)
    (hbb : (⟨2, ![1, 1]⟩ : Shape).Broadcasts ⟨2, ![A, 1]⟩) :
    addf (addf (shapeCast ⟨2, ![A, 1]⟩ agg hA1) (mulf (shapeCast ⟨2, ![A, 1]⟩ dcol hA1) (shapeCast ⟨2, ![A, 1]⟩ xw hA1)))
        (broadcastTo ⟨2, ![A, 1]⟩ (shapeCast ⟨2, ![1, 1]⟩ brow h11) hbb)
      = comb A 1 agg xw dcol brow := by
  funext j
  obtain ⟨p, q, rfl⟩ : ∃ (p : Fin A) (q : Fin 1), j = ix2 p q := ⟨j 0, j 1, eq_ix2 j⟩
  rw [shapeCast_self, shapeCast_self, shapeCast_self, shapeCast_self]
  show (agg (ix2 p q) + dcol (ix2 p q) * xw (ix2 p q)) + broadcastTo ⟨2, ![A, 1]⟩ brow hbb (ix2 p q) = _
  rw [broadcastTo_1n_an_apply brow hbb p q]
  have hq : q = (0 : Fin 1) := Subsingleton.elim _ _
  subst hq
  rfl

/-! ## The factor and the bias given as vectors -/

/-- A vector cast to one row reads, at (0, q), the vector at q. -/
theorem shapeCast_n_1n_apply {N : Nat} {α : Type} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]; show q.val = 0 * N + q.val; omega)

/-- With the factor a vector cast to a column and the bias a vector cast to a row, entry (r, q) reads the factor at r
    and the bias at q. -/
theorem comb_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    comb A N agg xw (shapeCast ⟨2, ![A, 1]⟩ d hd) (shapeCast ⟨2, ![1, N]⟩ b hb) (ix2 r q)
      = (agg (ix2 r q) + d (ix1 r) * xw (ix2 r q)) + b (ix1 q) := by
  show (agg (ix2 r q) + shapeCast ⟨2, ![A, 1]⟩ d hd (ix2 r (0 : Fin 1)) * xw (ix2 r q))
    + shapeCast ⟨2, ![1, N]⟩ b hb (ix2 (0 : Fin 1) q) = _
  rw [Cert.LibLayout.shapeCast_a_a1_apply d hd r (0 : Fin 1), shapeCast_n_1n_apply b hb q]

theorem combRelu_of_casts {A N : Nat} (agg xw : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    combRelu A N agg xw (shapeCast ⟨2, ![A, 1]⟩ d hd) (shapeCast ⟨2, ![1, N]⟩ b hb) (ix2 r q)
      = max ((agg (ix2 r q) + d (ix1 r) * xw (ix2 r q)) + b (ix1 q)) (Ideal.ofBits .f32 0x00000000#32) :=
  congrArg (max · (Ideal.ofBits .f32 0x00000000#32)) (comb_of_casts agg xw d b hd hb r q)

end Cert.Gcn

end
-- ==== Proof.LibJoin.lean ====
/-
  Two matrices with the same number of rows joined along the lane axis, read at an index written by its coordinates:
  a lane inside the first matrix's width reads the first matrix at the same place, a later lane reads the second
  matrix at that lane less the first matrix's width. Both are the library's general reading of a two-piece
  concatenation with the coordinates worked out for rank two.
-/
import Idealize.ShloMosaic.Lib.Pipeline.Value
import Idealize.ShloMosaic.Lib.ValueIdx

namespace Cert.LibJoin

open Idealize.ShloMosaic Idealize.ShloMosaic.ValueIdx

variable {α : Type}

/-- Lane `j` of the join, when `j` lies in the first matrix: the first matrix at `(r, j)`. -/
theorem join_left {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₁ : Fin b₁) (hj : j₁.val = j.val) :
    concatenate (⟨2, ![a, c]⟩ : Shape) 1 [⟨(⟨2, ![a, b₁]⟩ : Shape), x₁⟩, ⟨(⟨2, ![a, b₂]⟩ : Shape), x₂⟩] h (ix2 r j)
      = x₁ (ix2 r j₁) :=
  concatenate_pair_apply_left 1 x₁ x₂ h (ix2 r j) rfl (ix2 r j₁) fun d => by
    match d with
    | ⟨0, _⟩ => rfl
    | ⟨1, _⟩ => exact hj

/-- Lane `j` of the join, when `j` lies past the first matrix: the second matrix at `(r, j - b₁)`. -/
theorem join_right {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₂ : Fin b₂) (hj : j₂.val + b₁ = j.val) :
    concatenate (⟨2, ![a, c]⟩ : Shape) 1 [⟨(⟨2, ![a, b₁]⟩ : Shape), x₁⟩, ⟨(⟨2, ![a, b₂]⟩ : Shape), x₂⟩] h (ix2 r j)
      = x₂ (ix2 r j₂) :=
  concatenate_pair_apply_right 1 x₁ x₂ h (ix2 r j) rfl rfl (ix2 r j₂)
    (fun d hd => by
      match d with
      | ⟨0, _⟩ => rfl
      | ⟨1, _⟩ => exact absurd rfl hd)
    hj

end Cert.LibJoin
-- ==== Proof.LibSkipGcn.lean ====
/-
  A graph-convolution layer with self loops and a skip projection, entry by entry, on the extended reals.

  With deg(r) the degree of node r (self loop included), a layer adds to the aggregated neighbour messages agg(r, n)
  the node's own transformed row divided by its degree, and a bias:  (agg(r, n) + h(r, n) * (1 / deg(r))) + b(n),
  followed on the hidden layer by a maximum with zero.  Entry (r, n) depends on entry (r, n) of agg and h, on
  deg(r) and on b(n) only, so a program that walks over blocks of rows computes the blocks of the whole array.
  The hidden layer's output is joined with a narrow skip projection along the lanes and multiplied by a weight
  matrix; because a finite sum splits at any position, the product of the joined matrix is the product of the wide
  piece with the top rows of the weights plus the product of the narrow piece with the bottom rows.
  Both spellings of each step are read here (the degree as a column and the bias as a row, loaded, cast to themselves
  and broadcast; against both broadcast from vectors).  Everything is generic in the extents.
-/
import proofs.«118340_j2843268350769_2_alg».proof.Proof.LibGcnLayer
import proofs.«118340_j2843268350769_2_alg».proof.Proof.LibJoin
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.SkipGcn

open Idealize.ShloMosaic Idealize.ShloMosaic.ValueIdx

/-! ## A finite sum split at a position -/

/-- A sum over K1 + K2 terms is the sum of the first K1 plus the sum of the last K2. -/
theorem sum_split {K1 K2 K : Nat} (hK : K = K1 + K2) (f : Fin K → EReal) (g1 : Fin K1 → EReal) (g2 : Fin K2 → EReal)
    (h1 : ∀ (k : Fin K1) (k' : Fin K), k'.val = k.val → f k' = g1 k)
    (h2 : ∀ (k : Fin K2) (k' : Fin K), k'.val = K1 + k.val → f k' = g2 k) :
    ∑ k, f k = ∑ k, g1 k + ∑ k, g2 k := by
  subst hK
  rw [Fin.sum_univ_add]
  exact congrArg₂ (· + ·) (Finset.sum_congr rfl fun k _ => h1 k _ rfl) (Finset.sum_congr rfl fun k _ => h2 k _ rfl)

/-! ## The self-loop term -/

/-- The reciprocal of a degree, the numerator the f32 word of one. -/
def inv (d : EReal) : EReal := Ideal.div (Ideal.ofBits .f32 0x3F800000#32) d

/-- Entry (r, n) of a layer before its activation, the degree a column and the bias a row. -/
def selfC (A N : Nat) (agg h : FVec Ideal ⟨2, ![A, N]⟩ .f32) (dcol : FVec Ideal ⟨2, ![A, 1]⟩ .f32)
    (brow : FVec Ideal ⟨2, ![1, N]⟩ .f32) : FVec Ideal ⟨2, ![A, N]⟩ .f32 :=
  fun j => (agg j + h j * inv (dcol (ix2 (j 0 : Fin A) (0 : Fin 1)))) + brow (ix2 (0 : Fin 1) (j 1 : Fin N))

/-- The same with the degree and the bias vectors. -/
def selfV (A N : Nat) (agg h : FVec Ideal ⟨2, ![A, N]⟩ .f32) (d : FVec Ideal ⟨1, ![A]⟩ .f32)
    (b : FVec Ideal ⟨1, ![N]⟩ .f32) : FVec Ideal ⟨2, ![A, N]⟩ .f32 :=
  fun j => (agg j + h j * inv (d (ix1 (j 0 : Fin A)))) + b (ix1 (j 1 : Fin N))

/-- A maximum with zero, entry by entry. -/
def relu {s : Shape} (v : FVec Ideal s .f32) : FVec Ideal s .f32 := fun j => max (v j) (Ideal.ofBits .f32 0x00000000#32)

/-- Entry (p, q) depends on entry (p, q) of the messages and of the transformed rows, on the degree of row p and on
    the bias of column q. -/
theorem selfC_entry {A A' N : Nat} (agg h : FVec Ideal ⟨2, ![A, N]⟩ .f32) (dcol : FVec Ideal ⟨2, ![A, 1]⟩ .f32)
    (brow brow' : FVec Ideal ⟨2, ![1, N]⟩ .f32) (agg' h' : FVec Ideal ⟨2, ![A', N]⟩ .f32)
    (dcol' : FVec Ideal ⟨2, ![A', 1]⟩ .f32) (p : Fin A) (r : Fin A') (q : Fin N)
    (h1 : agg (ix2 p q) = agg' (ix2 r q)) (h2 : h (ix2 p q) = h' (ix2 r q))
    (h3 : dcol (ix2 p (0 : Fin 1)) = dcol' (ix2 r (0 : Fin 1))) (h4 : brow (ix2 (0 : Fin 1) q) = brow' (ix2 (0 : Fin 1) q)) :
    selfC A N agg h dcol brow (ix2 p q) = selfC A' N agg' h' dcol' brow' (ix2 r q) := by
  show (agg (ix2 p q) + h (ix2 p q) * inv (dcol (ix2 p (0 : Fin 1)))) + brow (ix2 (0 : Fin 1) q)
    = (agg' (ix2 r q) + h' (ix2 r q) * inv (dcol' (ix2 r (0 : Fin 1)))) + brow' (ix2 (0 : Fin 1) q)
  rw [h1, h2, h3, h4]

/-- With the degree a vector cast to a column and the bias a vector cast to a row, the column form is the vector form. -/
theorem selfC_of_casts {A N : Nat} (agg h : FVec Ideal ⟨2, ![A, N]⟩ .f32) (d : FVec Ideal ⟨1, ![A]⟩ .f32)
    (b : FVec Ideal ⟨1, ![N]⟩ .f32) (hd : (⟨1, ![A]⟩ : Shape).ShapeCasts ⟨2, ![A, 1]⟩)
    (hb : (⟨1, ![N]⟩ : Shape).ShapeCasts ⟨2, ![1, N]⟩) (r : Fin A) (q : Fin N) :
    selfC A N agg h (shapeCast ⟨2, ![A, 1]⟩ d hd) (shapeCast ⟨2, ![1, N]⟩ b hb) (ix2 r q) = selfV A N agg h d b (ix2 r q) := by
  show (agg (ix2 r q) + h (ix2 r q) * inv (shapeCast ⟨2, ![A, 1]⟩ d hd (ix2 r (0 : Fin 1))))
    + shapeCast ⟨2, ![1, N]⟩ b hb (ix2 (0 : Fin 1) q) = (agg (ix2 r q) + h (ix2 r q) * inv (d (ix1 r))) + b (ix1 q)
  rw [Cert.LibLayout.shapeCast_a_a1_apply d hd r (0 : Fin 1), Cert.Gcn.shapeCast_n_1n_apply b hb q]

/-- The kernel body's spelling: the loaded blocks cast to themselves, one over the degree column computed from a
    splatted one and broadcast along the rows, the bias row broadcast down them. -/
theorem selfC_of_body {A N : Nat} (agg h : FVec Ideal ⟨2, ![A, N]⟩ .f32) (dcol : FVec Ideal ⟨2, ![A, 1]⟩ .f32)
    (brow : FVec Ideal ⟨2, ![1, N]⟩ .f32)
    (hAN : (⟨2, ![A, N]⟩ : Shape).ShapeCasts ⟨2, ![A, N]⟩) (hA1 : (⟨2, ![A, 1]⟩ : Shape).ShapeCasts ⟨2, ![A, 1]⟩)
    (h1N : (⟨2, ![1, N]⟩ : Shape).ShapeCasts ⟨2, ![1, N]⟩)
    (hbd : (⟨2, ![A, 1]⟩ : Shape).Broadcasts ⟨2, ![A, N]⟩) (hbb : (⟨2, ![1, N]⟩ : Shape).Broadcasts ⟨2, ![A, N]⟩) :
    addf (addf (shapeCast ⟨2, ![A, N]⟩ agg hAN)
        (mulf (shapeCast ⟨2, ![A, N]⟩ h hAN)
          (broadcastTo ⟨2, ![A, N]⟩ (divf (broadcast ⟨2, ![A, 1]⟩ (Scalar.ofBits (F := Ideal) .f32 0x3F800000#32))
            (shapeCast ⟨2, ![A, 1]⟩ dcol hA1)) hbd)))
        (broadcastTo ⟨2, ![A, N]⟩ (shapeCast ⟨2, ![1, N]⟩ brow h1N) hbb)
      = selfC A N agg h dcol brow := by
  funext j
  obtain ⟨p, q, rfl⟩ : ∃ (p : Fin A) (q : Fin N), j = ix2 p q := ⟨j 0, j 1, eq_ix2 j⟩
  rw [shapeCast_self, shapeCast_self, shapeCast_self, shapeCast_self]
  show (agg (ix2 p q) + h (ix2 p q) * broadcastTo ⟨2, ![A, N]⟩
        (divf (broadcast ⟨2, ![A, 1]⟩ (Scalar.ofBits (F := Ideal) .f32 0x3F800000#32)) dcol) hbd (ix2 p q))
      + broadcastTo ⟨2, ![A, N]⟩ brow hbb (ix2 p q) = _
  rw [Cert.LibLayout.broadcastTo_a1_ab_apply _ hbd p q, Cert.Gcn.broadcastTo_1n_an_apply brow hbb p q]
  rfl

/-! ## The host's spelling -/

/-- A scalar broadcast to any shape reads the scalar. -/
theorem broadcastInDim_scalar_apply {s : Shape} {α : Type} (y : (⟨0, ![]⟩ : Shape).Idx → α)
    (h : (⟨0, ![]⟩ : Shape).BroadcastsInDim s (![] : Fin 0 → Fin s.rank)) (i : s.Idx) :
    broadcastInDim s ![] h y i = y (fun a => a.elim0) :=
  broadcastInDim_apply _ h y i (fun a => a.elim0) (fun a => a.elim0)

/-- A vector laid as a column reads, at (p, u), the vector at p. -/
theorem broadcastInDim_a_a1_apply {A : Nat} {α : Type} (v : (⟨1, ![A]⟩ : Shape).Idx → α)
    (h : (⟨1, ![A]⟩ : Shape).BroadcastsInDim ⟨2, ![A, 1]⟩ ![0]) (p : Fin A) (u : Fin 1) :
    broadcastInDim ⟨2, ![A, 1]⟩ ![0] h v (ix2 p u) = v (ix1 p) := by
  refine broadcastInDim_apply ![0] h v (ix2 p u) (ix1 p) ?_
  intro a
  match a with
  | ⟨0, _⟩ =>
    show p.val = if A = 1 then 0 else p.val
    split
    · have := p.isLt; omega
    · rfl

/-- A column repeated along the rows' lanes reads, at (p, q), the column's entry of row p. -/
theorem broadcastInDim_a1_an_apply {A N : Nat} {α : Type} (v : (⟨2, ![A, 1]⟩ : Shape).Idx → α)
    (h : (⟨2, ![A, 1]⟩ : Shape).BroadcastsInDim ⟨2, ![A, N]⟩ ![0, 1]) (p : Fin A) (q : Fin N) :
    broadcastInDim ⟨2, ![A, N]⟩ ![0, 1] h v (ix2 p q) = v (ix2 p (0 : Fin 1)) := by
  refine broadcastInDim_apply ![0, 1] h v (ix2 p q) (ix2 p (0 : Fin 1)) ?_
  intro a
  match a with
  | ⟨0, _⟩ =>
    show p.val = if A = 1 then 0 else p.val
    split
    · have := p.isLt; omega
    · rfl
  | ⟨1, _⟩ => rfl

/-- The host's layer: one over the degree vector (a broadcast one divided by it) laid as a column and along the lanes,
    the bias laid as a row and down the rows. -/
theorem selfV_of_host {A N : Nat} (agg h : FVec Ideal ⟨2, ![A, N]⟩ .f32) (d : FVec Ideal ⟨1, ![A]⟩ .f32)
    (b : FVec Ideal ⟨1, ![N]⟩ .f32)
    (h0 : (⟨0, ![]⟩ : Shape).BroadcastsInDim ⟨1, ![A]⟩ (![] : Fin 0 → Fin 1))
    (h1 : (⟨1, ![A]⟩ : Shape).BroadcastsInDim ⟨2, ![A, 1]⟩ ![0])
    (h2 : (⟨2, ![A, 1]⟩ : Shape).BroadcastsInDim ⟨2, ![A, N]⟩ ![0, 1])
    (hd : (⟨1, ![N]⟩ : Shape).BroadcastsInDim ⟨2, ![1, N]⟩ ![1])
    (hbc : (⟨2, ![1, N]⟩ : Shape).BroadcastsInDim ⟨2, ![A, N]⟩ ![0, 1]) :
    addf (addf agg (mulf h (broadcastInDim ⟨2, ![A, N]⟩ ![0, 1] h2 (broadcastInDim ⟨2, ![A, 1]⟩ ![0] h1
        (Host.divf (broadcastInDim ⟨1, ![A]⟩ ![] h0 (constant (F := Ideal) ⟨0, ![]⟩ .f32 0x3F800000#32)) d)))))
      (broadcastInDim ⟨2, ![A, N]⟩ ![0, 1] hbc (broadcastInDim ⟨2, ![1, N]⟩ ![1] hd b))
      = selfV A N agg h d b := by
  funext j
  obtain ⟨p, q, rfl⟩ : ∃ (p : Fin A) (q : Fin N), j = ix2 p q := ⟨j 0, j 1, eq_ix2 j⟩
  show (agg (ix2 p q) + h (ix2 p q) * broadcastInDim ⟨2, ![A, N]⟩ ![0, 1] h2 (broadcastInDim ⟨2, ![A, 1]⟩ ![0] h1
        (Host.divf (broadcastInDim ⟨1, ![A]⟩ ![] h0 (constant (F := Ideal) ⟨0, ![]⟩ .f32 0x3F800000#32)) d)) (ix2 p q))
      + broadcastInDim ⟨2, ![A, N]⟩ ![0, 1] hbc (broadcastInDim ⟨2, ![1, N]⟩ ![1] hd b) (ix2 p q) = _
  rw [broadcastInDim_a1_an_apply _ h2 p q, broadcastInDim_a_a1_apply _ h1 p (0 : Fin 1),
    Cert.LibDense.bias_rows_host_ix b hd hbc p q]
  show (agg (ix2 p q) + h (ix2 p q) * Ideal.div (broadcastInDim ⟨1, ![A]⟩ ![] h0
      (constant (F := Ideal) ⟨0, ![]⟩ .f32 0x3F800000#32) (ix1 p)) (d (ix1 p))) + b (ix1 q) = _
  rw [broadcastInDim_scalar_apply _ h0 (ix1 p)]
  rfl

/-- The host's maximum with a broadcast zero. -/
theorem relu_of_host {s : Shape} (v : FVec Ideal s .f32)
    (h0 : (⟨0, ![]⟩ : Shape).BroadcastsInDim s (![] : Fin 0 → Fin s.rank)) :
    maximumf v (broadcastInDim s ![] h0 (constant (F := Ideal) ⟨0, ![]⟩ .f32 0x00000000#32)) = relu v := by
  funext j
  show max (v j) (broadcastInDim s ![] h0 (constant (F := Ideal) ⟨0, ![]⟩ .f32 0x00000000#32) j) = _
  rw [broadcastInDim_scalar_apply _ h0 j]
  rfl

/-- The kernel's maximum with a splatted zero. -/
theorem relu_of_body {s : Shape} (v : FVec Ideal s .f32) :
    maximumf v (broadcast s (Scalar.ofBits (F := Ideal) .f32 0x00000000#32)) = relu v := rfl

/-! ## The product of a joined matrix -/

/-- Entry (r, n) of (u joined with v along the lanes) times w is entry (r, n) of u times the top K1 rows of w plus
    entry (r, n) of v times the bottom K2 rows: the operands given entry by entry. -/
theorem lin_join_entry {A A' K1 K2 K N : Nat} (hK : K = K1 + K2)
    (x : FVec Ideal ⟨2, ![A, K]⟩ .f32) (w : FVec Ideal ⟨2, ![K, N]⟩ .f32)
    (u : FVec Ideal ⟨2, ![A', K1]⟩ .f32) (wt : FVec Ideal ⟨2, ![K1, N]⟩ .f32)
    (v : FVec Ideal ⟨2, ![A', K2]⟩ .f32) (wb : FVec Ideal ⟨2, ![K2, N]⟩ .f32) (r : Fin A) (p : Fin A') (n : Fin N)
    (hu : ∀ (k : Fin K1) (k' : Fin K), k'.val = k.val → x (ix2 r k') = u (ix2 p k))
    (hwt : ∀ (k : Fin K1) (k' : Fin K), k'.val = k.val → w (ix2 k' n) = wt (ix2 k n))
    (hv : ∀ (k : Fin K2) (k' : Fin K), k'.val = K1 + k.val → x (ix2 r k') = v (ix2 p k))
    (hwb : ∀ (k : Fin K2) (k' : Fin K), k'.val = K1 + k.val → w (ix2 k' n) = wb (ix2 k n)) :
    Cert.Gcn.lin A K N x w (ix2 r n) = Cert.Gcn.lin A' K1 N u wt (ix2 p n) + Cert.Gcn.lin A' K2 N v wb (ix2 p n) := by
  show (∑ k : Fin K, x (ix2 r k) * w (ix2 k n))
    = (∑ k : Fin K1, u (ix2 p k) * wt (ix2 k n)) + ∑ k : Fin K2, v (ix2 p k) * wb (ix2 k n)
  exact sum_split hK _ _ _ (fun k k' e => by rw [hu k k' e, hwt k k' e]) (fun k k' e => by rw [hv k k' e, hwb k k' e])

/-! ## The hidden layer followed by the next layer's product -/

/-- The next layer's rows before aggregation: the hidden layer's output (the self-loop combination under a maximum with
    zero) times the top rows of the weights, plus the skip projection times the bottom rows. -/
def hidden (A K1 K2 N : Nat) (agg h : FVec Ideal ⟨2, ![A, K1]⟩ .f32) (dcol : FVec Ideal ⟨2, ![A, 1]⟩ .f32)
    (brow : FVec Ideal ⟨2, ![1, K1]⟩ .f32) (xp : FVec Ideal ⟨2, ![A, K2]⟩ .f32) (wt : FVec Ideal ⟨2, ![K1, N]⟩ .f32)
    (wb : FVec Ideal ⟨2, ![K2, N]⟩ .f32) : FVec Ideal ⟨2, ![A, N]⟩ .f32 :=
  addf (Cert.Gcn.lin A K1 N (relu (selfC A K1 agg h dcol brow)) wt) (Cert.Gcn.lin A K2 N xp wb)

/-- Entry (p, q) depends on row p of the messages, of the transformed rows and of the skip projection, on the degree
    of row p, on the bias row and on column q of the two weight pieces. -/
theorem hidden_entry {A A' K1 K2 N : Nat} (agg h : FVec Ideal ⟨2, ![A, K1]⟩ .f32) (dcol : FVec Ideal ⟨2, ![A, 1]⟩ .f32)
    (brow brow' : FVec Ideal ⟨2, ![1, K1]⟩ .f32) (xp : FVec Ideal ⟨2, ![A, K2]⟩ .f32)
    (wt wt' : FVec Ideal ⟨2, ![K1, N]⟩ .f32) (wb wb' : FVec Ideal ⟨2, ![K2, N]⟩ .f32)
    (agg' h' : FVec Ideal ⟨2, ![A', K1]⟩ .f32) (dcol' : FVec Ideal ⟨2, ![A', 1]⟩ .f32) (xp' : FVec Ideal ⟨2, ![A', K2]⟩ .f32)
    (p : Fin A) (r : Fin A') (q : Fin N)
    (h1 : ∀ k : Fin K1, agg (ix2 p k) = agg' (ix2 r k)) (h2 : ∀ k : Fin K1, h (ix2 p k) = h' (ix2 r k))
    (h3 : dcol (ix2 p (0 : Fin 1)) = dcol' (ix2 r (0 : Fin 1))) (h4 : ∀ k : Fin K1, brow (ix2 (0 : Fin 1) k) = brow' (ix2 (0 : Fin 1) k))
    (h5 : ∀ k : Fin K2, xp (ix2 p k) = xp' (ix2 r k)) (h6 : ∀ k : Fin K1, wt (ix2 k q) = wt' (ix2 k q))
    (h7 : ∀ k : Fin K2, wb (ix2 k q) = wb' (ix2 k q)) :
    hidden A K1 K2 N agg h dcol brow xp wt wb (ix2 p q) = hidden A' K1 K2 N agg' h' dcol' brow' xp' wt' wb' (ix2 r q) := by
  show Cert.Gcn.lin A K1 N (relu (selfC A K1 agg h dcol brow)) wt (ix2 p q) + Cert.Gcn.lin A K2 N xp wb (ix2 p q)
    = Cert.Gcn.lin A' K1 N (relu (selfC A' K1 agg' h' dcol' brow')) wt' (ix2 r q) + Cert.Gcn.lin A' K2 N xp' wb' (ix2 r q)
  refine congrArg₂ (· + ·) (Cert.Gcn.lin_entry _ _ wt wt' p r q (fun k => ?_) h6) (Cert.Gcn.lin_entry xp xp' wb wb' p r q h5 h7)
  exact congrArg (max · (Ideal.ofBits .f32 0x00000000#32))
    (selfC_entry agg h dcol brow brow' agg' h' dcol' p r k (h1 k) (h2 k) h3 (h4 k))

/-! ## Two matrices joined along the lanes, entry by entry -/

/-- Entry (p, l) of f joined with g: f at lane l inside f's width N, g at lane l - N past it. -/
def joinAt {A N K2 C : Nat} (hC : C = N + K2) (f : (⟨2, ![A, N]⟩ : Shape).Idx → EReal)
    (g : (⟨2, ![A, K2]⟩ : Shape).Idx → EReal) (p : Fin A) (l : Fin C) : EReal :=
  if h : l.val < N then f (ix2 p ⟨l.val, h⟩) else g (ix2 p ⟨l.val - N, by have := l.isLt; omega⟩)

/-- The joined matrix as one function of the index. -/
def joinRows (A N K2 C : Nat) (hC : C = N + K2) (f : (⟨2, ![A, N]⟩ : Shape).Idx → EReal)
    (g : (⟨2, ![A, K2]⟩ : Shape).Idx → EReal) : (⟨2, ![A, C]⟩ : Shape).Idx → EReal :=
  fun j => joinAt hC f g (j 0 : Fin A) (j 1 : Fin C)

/-- A two-piece concatenation along the lanes is that function. -/
theorem concatenate_eq_joinRows {A N K2 C : Nat} (hC : C = N + K2) (f : (⟨2, ![A, N]⟩ : Shape).Idx → EReal)
    (g : (⟨2, ![A, K2]⟩ : Shape).Idx → EReal)
    (hc : Shape.Concatenates [(⟨2, ![A, N]⟩ : Shape), (⟨2, ![A, K2]⟩ : Shape)] (⟨2, ![A, C]⟩ : Shape) 1) :
    concatenate (⟨2, ![A, C]⟩ : Shape) 1 [⟨(⟨2, ![A, N]⟩ : Shape), f⟩, ⟨(⟨2, ![A, K2]⟩ : Shape), g⟩] hc
      = joinRows A N K2 C hC f g := by
  funext j
  obtain ⟨p, l, rfl⟩ : ∃ (p : Fin A) (l : Fin C), j = ix2 p l := ⟨j 0, j 1, eq_ix2 j⟩
  show _ = joinAt hC f g p l
  unfold joinAt
  by_cases h : l.val < N
  · rw [dif_pos h]
    exact Cert.LibJoin.join_left f g hc p l ⟨l.val, h⟩ rfl
  · rw [dif_neg h]
    exact Cert.LibJoin.join_right f g hc p l ⟨l.val - N, by have := l.isLt; omega⟩ (by show l.val - N + N = l.val; omega)

/-- Entry (p, l) of a join depends on row p of the two pieces only. -/
theorem joinRows_entry {A A' N K2 C : Nat} (hC : C = N + K2) (f : (⟨2, ![A, N]⟩ : Shape).Idx → EReal)
    (g : (⟨2, ![A, K2]⟩ : Shape).Idx → EReal) (f' : (⟨2, ![A', N]⟩ : Shape).Idx → EReal)
    (g' : (⟨2, ![A', K2]⟩ : Shape).Idx → EReal) (p : Fin A) (r : Fin A') (l : Fin C)
    (hf : ∀ q : Fin N, f (ix2 p q) = f' (ix2 r q)) (hg : ∀ q : Fin K2, g (ix2 p q) = g' (ix2 r q)) :
    joinRows A N K2 C hC f g (ix2 p l) = joinRows A' N K2 C hC f' g' (ix2 r l) := by
  show joinAt hC f g p l = joinAt hC f' g' r l
  unfold joinAt
  split
  · exact hf _
  · exact hg _

end Cert.SkipGcn

end
-- ==== Proof.KBody.lean ====
/-
  What the three kernel bodies compute from their loaded blocks, at the ideal values.

  The first body multiplies a block of 5000 feature rows by the joined weight matrix.  The second forms, for its block
  of rows, the hidden layer (aggregated messages plus the node's own row over its degree plus the bias, under a
  maximum with zero), and multiplies it by the top 128 rows of the second weight matrix, adding the skip projection
  times the bottom 4 rows.  The third forms the output layer's self-loop combination and joins the skip projection
  onto it along the lanes.  Narrowing to bf16 is the identity on extended reals and a zero accumulator adds nothing.
-/
import proofs.«118340_j2843268350769_2_alg».proof.Proof.Gen.KernelIdeal.Skeleton
import proofs.«118340_j2843268350769_2_alg».proof.Proof.LibSkipGcn

noncomputable section

namespace Cert.KernelIdeal.Hand

open Cert.KernelIdeal Cert.KernelIdeal.Gen Idealize.ShloMosaic Idealize.ShloMosaic.ValueIdx

/-- The projection body: the block of rows times the joined weights. -/
theorem pay0_eq (v0 : Vec Ideal S5000x128 .f32) (v2 : Vec Ideal S128x132 .f32) :
    k0_pay1 (F := Ideal) v0 v2 = Cert.Gcn.lin 5000 128 132 v0 v2 := by
  unfold k0_pay1
  dsimp only
  rw [shapeCast_self v2]
  exact Cert.Gcn.lin_of_matmul (A := 5000) (K := 128) (N := 132) v0 v2 bitsLt_bf16_f32

/-- The fused hidden-layer body. -/
theorem pay1_eq (v0 : Vec Ideal S5000x1 .f32) (v4 v6 : Vec Ideal S5000x128 .f32) (v11 : Vec Ideal S1x128 .f32)
    (v18 : Vec Ideal S5000x4 .f32) (v21 : Vec Ideal S128x132 .f32) (v24 : Vec Ideal S4x132 .f32) :
    k1_pay1 (F := Ideal) v0 v4 v6 v11 v18 v21 v24 = Cert.SkipGcn.hidden 5000 128 4 132 v4 v6 v0 v11 v18 v21 v24 := by
  have e1 := Cert.SkipGcn.selfC_of_body (A := 5000) (N := 128) v4 v6 v0 v11 shapeCasts_S5000x128_S5000x128
    shapeCasts_S5000x1_S5000x1 shapeCasts_S1x128_S1x128 broadcasts_S5000x1_S5000x128 broadcasts_S1x128_S5000x128
  have e2 := Cert.Gcn.lin_of_matmul (A := 5000) (K := 128) (N := 132)
    (Cert.SkipGcn.relu (Cert.SkipGcn.selfC 5000 128 v4 v6 v0 v11)) v21 bitsLt_bf16_f32
  have e3 := Cert.Gcn.lin_of_matmul (A := 5000) (K := 4) (N := 132) v18 v24 bitsLt_bf16_f32
  unfold k1_pay1
  dsimp only
  rw [shapeCast_self v21, shapeCast_self v24, shapeCast_self v18, e1, Cert.SkipGcn.relu_of_body]
  exact congrArg₂ addf e2 e3

/-- The final body. -/
theorem pay2_eq (v0 : Vec Ideal S5000x1 .f32) (v4 v6 : Vec Ideal S5000x132 .f32) (v11 : Vec Ideal S1x132 .f32)
    (v15 : Vec Ideal S5000x4 .f32) :
    k2_pay1 (F := Ideal) v0 v4 v6 v11 v15
      = concatenate S5000x136 1 [⟨S5000x132, Cert.SkipGcn.selfC 5000 132 v4 v6 v0 v11⟩, ⟨S5000x4, v15⟩]
          concatenates_S5000x132_S5000x4_S5000x136_d1 := by
  have e1 := Cert.SkipGcn.selfC_of_body (A := 5000) (N := 132) v4 v6 v0 v11 shapeCasts_S5000x132_S5000x132
    shapeCasts_S5000x1_S5000x1 shapeCasts_S1x132_S1x132 broadcasts_S5000x1_S5000x132 broadcasts_S1x132_S5000x132
  unfold k2_pay1
  dsimp only
  rw [shapeCast_self v15, e1]

end Cert.KernelIdeal.Hand

end
-- ==== Proof.KReg0.lean ====
/-
  The projection region: what its result array holds when it ends.

  The region walks over ten blocks of 5000 rows.  At point t it stages rows 5000 t … 5000 t + 4999 of the feature matrix
  and the whole joined weight matrix, and writes back the block's product as rows 5000 t … of the result.  Entry (r, n)
  of a product depends on row r of the left factor only, so each written block is the block of the whole product, and
  the ten blocks cover the result: it ends holding the whole product.  Stated at any contents the region is entered with.
-/
import proofs.«118340_j2843268350769_2_alg».proof.Proof.Gen.KernelIdeal.Frame
import proofs.«118340_j2843268350769_2_alg».proof.Proof.KBody
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block index maps over the grid: the feature rows and the result move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 5000 t … of the feature matrix. -/
theorem iblk0_0_apply (c : Dev nD) (t : Fin cfg0.N) (y : S5000x128.Idx) (k : S50000x128.Idx)
    (hk0 : (k 0).val = t.val * 5000 + (y 0).val) (hk1 : (k 1).val = (y 1).val) :
    (iblk0 V c 0 t : Vec Ideal S5000x128 .f32) y = (V c main_arg1 : S50000x128.Idx → Elt Ideal .f32) k := by
  obtain ⟨e0, e1, -⟩ := idx0 t
  unfold iblk0
  rw [View.read_apply]
  show (V c main_arg1 : S50000x128.Idx → Elt Ideal .f32) _ = _
  refine congrArg (V c main_arg1 : S50000x128.Idx → Elt Ideal .f32) ?_
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The weight window's block at every point is the whole joined weight matrix. -/
theorem iblk0_1_apply (c : Dev nD) (t : Fin cfg0.N) (y : S128x132.Idx) :
    (iblk0 V c 1 t : Vec Ideal S128x132 .f32) y = (V c main_v27 : S128x132.Idx → Elt Ideal .f32) y := by
  obtain ⟨-, -, e2, e3, -⟩ := idx0 t
  unfold iblk0
  rw [View.read_apply]
  show (V c main_v27 : S128x132.Idx → Elt Ideal .f32) _ = _
  refine congrArg (V c main_v27 : S128x132.Idx → Elt Ideal .f32) ?_
  funext a
  apply Fin.ext
  match a with
  | ⟨0, _⟩ => show win0_1.index t 0 * 128 + 1 * (y 0).val = (y 0).val; rw [e2]; omega
  | ⟨1, _⟩ => show win0_1.index t 1 * 132 + 1 * (y 1).val = (y 1).val; rw [e3]; omega

/-- What point t writes back is block t of the whole product. -/
theorem flushed0 (c : Dev nD) (t : Fin cfg0.N) :
    (dat0 V c).flushed 2 t = ((cfg0.win 2).blk t).view.read (Elt Ideal)
      (Cert.Gcn.lin 50000 128 132 (V c main_arg1) (V c main_v27)) := by
  obtain ⟨-, -, -, -, e4, e5⟩ := idx0 t
  have hN : cfg0.N = 10 := N_0
  show (cfg0.win 2).cut (grid0.coords t) ((dat0 V c).after 2 t) = _
  rw [after0_2]
  unfold out0_2
  rw [View.canon_unit_zero hz2]
  simp only [View.ld_unit_zero (S := S5000x128) hz2, View.ld_unit_zero (S := S128x132) hz2]
  rw [pay0_eq]
  funext y
  obtain ⟨p, q, rfl⟩ : ∃ (p : Fin 5000) (q : Fin 132), y = ix2 p q :=
    ⟨⟨(y 0).val, (y 0).isLt⟩, ⟨(y 1).val, (y 1).isLt⟩, eq_ix2 y⟩
  have hr : t.val * 5000 + p.val < 50000 := by have := t.isLt; have := p.isLt; omega
  have hemb : ((cfg0.win 2).blk t).view.emb (ix2 p q) = ix2 (⟨t.val * 5000 + p.val, hr⟩ : Fin 50000) q := by
    funext a
    apply Fin.ext
    match a with
    | ⟨0, _⟩ => show win0_2.index t 0 * 5000 + 1 * p.val = t.val * 5000 + p.val; rw [e4]; omega
    | ⟨1, _⟩ => show win0_2.index t 1 * 132 + 1 * q.val = q.val; rw [e5]; omega
  show Cert.Gcn.lin 5000 128 132 (iblk0 V c 0 t) (iblk0 V c 1 t) (ix2 p q)
    = Cert.Gcn.lin 50000 128 132 (V c main_arg1) (V c main_v27) (((cfg0.win 2).blk t).view.emb (ix2 p q))
  rw [hemb]
  exact Cert.Gcn.lin_entry _ _ _ _ p _ q
    (fun k => iblk0_0_apply V c t _ _ rfl rfl) (fun k => iblk0_1_apply V c t _)

/-- Every row of the result lies in the block of the point that is its quotient by 5000. -/
theorem cover0 (i : S50000x132.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 132 := (i 1).isLt
  let t : Fin cfg0.N := ⟨(i 0).val / 5000, by omega⟩
  obtain ⟨-, -, -, -, e4, e5⟩ := idx0 t
  refine ⟨t, flush0_2 t, ?_⟩
  show i ∈ ((View.whole main_v28).slice (win0_2.rect t)).set
  rw [View.set_slice_whole, Rect.mem_set_unit]
  intro a
  match a with
  | ⟨0, _⟩ =>
    show win0_2.index t 0 * 5000 ≤ (i 0).val ∧ (i 0).val < win0_2.index t 0 * 5000 + 5000
    rw [e4]; show (i 0).val / 5000 * 5000 ≤ (i 0).val ∧ (i 0).val < (i 0).val / 5000 * 5000 + 5000; omega
  | ⟨1, _⟩ =>
    show win0_2.index t 1 * 132 ≤ (i 1).val ∧ (i 1).val < win0_2.index t 1 * 132 + 132
    rw [e5]; omega

/-- The result array after the region: the feature matrix times the joined weights. -/
theorem final0 (c : Dev nD) :
    (dat0 V c).arrAt 2 cfg0.N = Cert.Gcn.lin 50000 128 132 (V c main_arg1) (V c main_v27) :=
  (dat0 V c).arrAt_eq_of_cover 2 _ (fun t _ => flushed0 V c t) cover0

end Cert.KernelIdeal.Hand

end
-- ==== Proof.Bridge0.lean ====
/-
  The projection region against the reference's two first products.

  The kernel multiplies the feature matrix once by the first layer's weights and the skip projection's weights joined
  along the lanes, and then slices the product: lanes 0 … 127 and lanes 128 … 131.  Lane n of a product is the sum over
  k of x(r, k) times column n of the weights, and column n of the joined weights is column n of the first matrix for
  n < 128 and column n - 128 of the second past that.  So the two slices are the reference's two separate products.
-/
import proofs.«118340_j2843268350769_2_alg».proof.Proof.Gen.ReferenceIdeal.Read
import proofs.«118340_j2843268350769_2_alg».proof.Proof.LibSkipGcn

noncomputable section

open scoped BigOperators

namespace Cert.Bridge

open Idealize.ShloMosaic Idealize.ShloMosaic.ValueIdx Cert.ReferenceIdeal Cert.ReferenceIdeal.Read

/-- The reference's first-layer product is the plain sum over the shared axis. -/
theorem v5_eq_lin (x1 : FVec Ideal S50000x128 .f32) (x3 : FVec Ideal S128x128 .f32) :
    val_main_v5 (F := Ideal) x1 x3 = Cert.Gcn.lin 50000 128 128 x1 x3 :=
  Cert.Gcn.lin_of_dotGeneral (A := 50000) (K := 128) (N := 128) x1 x3

/-- So is its skip projection. -/
theorem v4_eq_lin (x1 : FVec Ideal S50000x128 .f32) (x2 : FVec Ideal S128x4 .f32) :
    val_main_v4 (F := Ideal) x1 x2 = Cert.Gcn.lin 50000 128 4 x1 x2 :=
  Cert.Gcn.lin_of_dotGeneral (A := 50000) (K := 128) (N := 4) x1 x2

/-- Lanes 0 … 127 of the product with the joined weights are the product with the first layer's weights. -/
theorem hlin_eq (x1 : FVec Ideal S50000x128 .f32) (x2 : FVec Ideal S128x4 .f32) (x3 : FVec Ideal S128x128 .f32)
    (hc : Shape.Concatenates [(⟨2, ![128, 128]⟩ : Shape), (⟨2, ![128, 4]⟩ : Shape)] (⟨2, ![128, 132]⟩ : Shape) 1)
    (hs : (⟨2, ![50000, 132]⟩ : Shape).Slices ![0, 0] (⟨2, ![50000, 128]⟩ : Shape)) :
    extractStridedSlice (⟨2, ![50000, 128]⟩ : Shape) ![0, 0]
      (Cert.Gcn.lin 50000 128 132 x1 (concatenate (⟨2, ![128, 132]⟩ : Shape) 1 [⟨(⟨2, ![128, 128]⟩ : Shape), x3⟩, ⟨(⟨2, ![128, 4]⟩ : Shape), x2⟩] hc)) hs
      = val_main_v5 (F := Ideal) x1 x3 := by
  rw [v5_eq_lin]
  funext j
  obtain ⟨r, q, rfl⟩ : ∃ (r : Fin 50000) (q : Fin 128), j = ix2 r q := ⟨j 0, j 1, eq_ix2 j⟩
  rw [extractStridedSlice_apply ![0, 0] _ hs (ix2 r q) (ix2 r (⟨q.val, by have := q.isLt; omega⟩ : Fin 132)) (fun a => by
    match a with
    | ⟨0, _⟩ => show r.val = 0 + r.val; omega
    | ⟨1, _⟩ => show q.val = 0 + q.val; omega)]
  show (∑ k : Fin 128, x1 (ix2 r k) * concatenate (⟨2, ![128, 132]⟩ : Shape) 1 [⟨(⟨2, ![128, 128]⟩ : Shape), x3⟩, ⟨(⟨2, ![128, 4]⟩ : Shape), x2⟩] hc
      (ix2 k (⟨q.val, _⟩ : Fin 132))) = ∑ k : Fin 128, x1 (ix2 r k) * x3 (ix2 k q)
  refine Finset.sum_congr rfl fun k _ => ?_
  rw [Cert.LibJoin.join_left x3 x2 hc k (⟨q.val, by have := q.isLt; omega⟩ : Fin 132) q rfl]

/-- Lanes 128 … 131 are the product with the skip projection's weights. -/
theorem xproj_eq (x1 : FVec Ideal S50000x128 .f32) (x2 : FVec Ideal S128x4 .f32) (x3 : FVec Ideal S128x128 .f32)
    (hc : Shape.Concatenates [(⟨2, ![128, 128]⟩ : Shape), (⟨2, ![128, 4]⟩ : Shape)] (⟨2, ![128, 132]⟩ : Shape) 1)
    (hs : (⟨2, ![50000, 132]⟩ : Shape).Slices ![0, 128] (⟨2, ![50000, 4]⟩ : Shape)) :
    extractStridedSlice (⟨2, ![50000, 4]⟩ : Shape) ![0, 128]
      (Cert.Gcn.lin 50000 128 132 x1 (concatenate (⟨2, ![128, 132]⟩ : Shape) 1 [⟨(⟨2, ![128, 128]⟩ : Shape), x3⟩, ⟨(⟨2, ![128, 4]⟩ : Shape), x2⟩] hc)) hs
      = val_main_v4 (F := Ideal) x1 x2 := by
  rw [v4_eq_lin]
  funext j
  obtain ⟨r, q, rfl⟩ : ∃ (r : Fin 50000) (q : Fin 4), j = ix2 r q := ⟨j 0, j 1, eq_ix2 j⟩
  rw [extractStridedSlice_apply ![0, 128] _ hs (ix2 r q) (ix2 r (⟨128 + q.val, by have := q.isLt; omega⟩ : Fin 132)) (fun a => by
    match a with
    | ⟨0, _⟩ => show r.val = 0 + r.val; omega
    | ⟨1, _⟩ => show 128 + q.val = 128 + q.val; rfl)]
  show (∑ k : Fin 128, x1 (ix2 r k) * concatenate (⟨2, ![128, 132]⟩ : Shape) 1 [⟨(⟨2, ![128, 128]⟩ : Shape), x3⟩, ⟨(⟨2, ![128, 4]⟩ : Shape), x2⟩] hc
      (ix2 k (⟨128 + q.val, _⟩ : Fin 132))) = ∑ k : Fin 128, x1 (ix2 r k) * x2 (ix2 k q)
  refine Finset.sum_congr rfl fun k _ => ?_
  rw [Cert.LibJoin.join_right x3 x2 hc k (⟨128 + q.val, by have := q.isLt; omega⟩ : Fin 132) q (by show q.val + 128 = 128 + q.val; omega)]

end Cert.Bridge

end
-- ==== Proof.KHost1.lean ====
/-
  From the projection region to the fused hidden-layer region: the buffers the second region is entered with.

  The projection region leaves the feature matrix times the joined weights; every other buffer keeps what the first
  stretch of host operations left.  The second stretch slices that product into the transformed rows and the skip
  projection, gathers the transformed rows at the source of every edge, scales them by the edge coefficient and adds
  them up at the targets (the aggregated messages), lays the first bias out as a row and cuts the second weight matrix
  into its top 128 and bottom 4 rows.  The reference applies the same gather, scaling and scatter-add to its own
  first-layer product, which is the same array, so the messages are the reference's messages.
-/
import proofs.«118340_j2843268350769_2_alg».proof.Proof.Gen.KernelIdeal.Frame
import proofs.«118340_j2843268350769_2_alg».proof.Proof.Gen.ReferenceIdeal.Read
import proofs.«118340_j2843268350769_2_alg».proof.Proof.KHost0
import proofs.«118340_j2843268350769_2_alg».proof.Proof.KReg0
import proofs.«118340_j2843268350769_2_alg».proof.Proof.Bridge0

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ) (ρ : Dev nD → PrngReg) (c : Dev nD)

/-! ## After the projection region -/

theorem W2_v1 : W2 m ρ c (Proc.devRef .tc main_v1) = (Cert.ReferenceIdeal.Read.val_main_v1 (F := Ideal) (m ((c : Thread nD τ).loc main_arg0))) :=
  (W2_of_ne m ρ c main_v1 (by decide)).trans (W1_v1 m ρ c)

theorem W2_v3 : W2 m ρ c (Proc.devRef .tc main_v3) = (Cert.ReferenceIdeal.Read.val_main_v3 (F := Ideal) (m ((c : Thread nD τ).loc main_arg0))) :=
  (W2_of_ne m ρ c main_v3 (by decide)).trans (W1_v3 m ρ c)

theorem W2_v25 : W2 m ρ c (Proc.devRef .tc main_v25) = (Cert.ReferenceIdeal.Read.val_main_v27 (F := Ideal) (m ((c : Thread nD τ).loc main_arg0))) :=
  (W2_of_ne m ρ c main_v25 (by decide)).trans (W1_v25 m ρ c)

theorem W2_v26 : W2 m ρ c (Proc.devRef .tc main_v26) = (shapeCast S50000x1 (Cert.ReferenceIdeal.Read.val_main_v11 (F := Ideal) (m ((c : Thread nD τ).loc main_arg0))) shapeCasts_S50000_S50000x1) :=
  (W2_of_ne m ρ c main_v26 (by decide)).trans (W1_v26 m ρ c)

theorem W2_arg4 : W2 m ρ c (Proc.devRef .tc main_arg4) = (m ((c : Thread nD τ).loc main_arg4)) :=
  (W2_of_ne m ρ c main_arg4 (by decide)).trans (W1_arg4 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

/-- The projection region's result: the feature matrix times the joined weights. -/
theorem W2_v28 : W2 m ρ c (Proc.devRef .tc main_v28) = Cert.Gcn.lin 50000 128 132 (m ((c : Thread nD τ).loc main_arg1)) (concatenate S128x132 1 [⟨S128x128, (m ((c : Thread nD τ).loc main_arg3))⟩, ⟨S128x4, (m ((c : Thread nD τ).loc main_arg2))⟩] concatenates_S128x128_S128x4_S128x132_d1) := by
  refine (W2_arr m ρ c 2).trans ((final0 (V1 m ρ) c).trans ?_)
  rw [show V1 m ρ c main_arg1 = (m ((c : Thread nD τ).loc main_arg1)) from W1_arg1 m ρ c, show V1 m ρ c main_v27 = _ from W1_v27 m ρ c]

/-! ## At the entry of the fused region -/

/-- The transformed rows: the reference's first-layer product. -/
theorem W3_v29 : W3 m ρ c (Proc.devRef .tc main_v29) = (Cert.ReferenceIdeal.Read.val_main_v5 (F := Ideal) (m ((c : Thread nD τ).loc main_arg1)) (m ((c : Thread nD τ).loc main_arg3))) := by
  dsimp only [W3, hostOps1]
  after_results_simp
  rw [W2_v28]
  exact Cert.Bridge.hlin_eq _ _ _ _ _

/-- The skip projection: the reference's. -/
theorem W3_v30 : W3 m ρ c (Proc.devRef .tc main_v30) = (Cert.ReferenceIdeal.Read.val_main_v4 (F := Ideal) (m ((c : Thread nD τ).loc main_arg1)) (m ((c : Thread nD τ).loc main_arg2))) := by
  dsimp only [W3, hostOps1]
  after_results_simp
  rw [W2_v28]
  exact Cert.Bridge.xproj_eq _ _ _ _ _

/-- The degree column is untouched. -/
theorem W3_v26 : W3 m ρ c (Proc.devRef .tc main_v26) = (shapeCast S50000x1 (Cert.ReferenceIdeal.Read.val_main_v11 (F := Ideal) (m ((c : Thread nD τ).loc main_arg0))) shapeCasts_S50000_S50000x1) := by
  dsimp only [W3, hostOps1]
  after_results_simp
  exact W2_v26 m ρ c

/-- The first bias as a row. -/
theorem W3_v44 : W3 m ρ c (Proc.devRef .tc main_v44) = shapeCast S1x128 (m ((c : Thread nD τ).loc main_arg4)) shapeCasts_S128_S1x128 := by
  dsimp only [W3, hostOps1]
  after_results_simp
  rw [W2_arg4]
  rfl

/-- The top 128 rows of the second weight matrix. -/
theorem W3_v45 : W3 m ρ c (Proc.devRef .tc main_v45)
    = extractStridedSlice S128x132 ![0, 0] (m ((c : Thread nD τ).loc main_arg5)) slices_S132x132_S128x132_0_0 := by
  dsimp only [W3, hostOps1]
  after_results_simp
  rw [W2_arg5]

/-- Its bottom 4 rows. -/
theorem W3_v46 : W3 m ρ c (Proc.devRef .tc main_v46)
    = extractStridedSlice S4x132 ![128, 0] (m ((c : Thread nD τ).loc main_arg5)) slices_S132x132_S4x132_128_0 := by
  dsimp only [W3, hostOps1]
  after_results_simp
  rw [W2_arg5]

set_option maxHeartbeats 4000000 in
/-- The first layer's aggregated messages: the reference's. -/
theorem W3_v43 : W3 m ρ c (Proc.devRef .tc main_v43) = (Cert.ReferenceIdeal.Read.val_main_v40 (F := Ideal) (m ((c : Thread nD τ).loc main_arg0)) (m ((c : Thread nD τ).loc main_arg1)) (m ((c : Thread nD τ).loc main_arg3))) := by
  dsimp only [W3, hostOps1]
  after_results_simp
  rw [W2_v28, W2_v1, W2_v3, W2_v25, Cert.Bridge.hlin_eq]
  rfl

/-- The source row is untouched. -/
theorem W3_v1 : W3 m ρ c (Proc.devRef .tc main_v1) = (Cert.ReferenceIdeal.Read.val_main_v1 (F := Ideal) (m ((c : Thread nD τ).loc main_arg0))) := by
  dsimp only [W3, hostOps1]
  after_results_simp
  exact W2_v1 m ρ c

/-- The target row is untouched. -/
theorem W3_v3 : W3 m ρ c (Proc.devRef .tc main_v3) = (Cert.ReferenceIdeal.Read.val_main_v3 (F := Ideal) (m ((c : Thread nD τ).loc main_arg0))) := by
  dsimp only [W3, hostOps1]
  after_results_simp
  exact W2_v3 m ρ c

/-- The edge coefficient is untouched. -/
theorem W3_v25 : W3 m ρ c (Proc.devRef .tc main_v25) = (Cert.ReferenceIdeal.Read.val_main_v27 (F := Ideal) (m ((c : Thread nD τ).loc main_arg0))) := by
  dsimp only [W3, hostOps1]
  after_results_simp
  exact W2_v25 m ρ c

/-- The second bias is untouched. -/
theorem W3_arg6 : W3 m ρ c (Proc.devRef .tc main_arg6) = (m ((c : Thread nD τ).loc main_arg6)) := by
  dsimp only [W3, hostOps1]
  after_results_simp
  exact W2_arg6 m ρ c

end Cert.KernelIdeal.Hand

end
-- ==== Proof.KReg1.lean ====
/-
  The fused hidden-layer region: what its result array holds when it ends.

  At point t the region stages rows 5000 t … of the aggregated messages, of the transformed rows, of the degree column
  and of the skip projection, and the whole bias row and both weight pieces, and writes back rows 5000 t … of the
  next layer's rows.  Entry (r, n) of those depends on row r of the row-indexed operands only, so each written block is
  the block of the whole array, and the ten blocks cover it.  Stated at any contents the region is entered with.
-/
import proofs.«118340_j2843268350769_2_alg».proof.Proof.Gen.KernelIdeal.Frame
import proofs.«118340_j2843268350769_2_alg».proof.Proof.KBody
import proofs.«118340_j2843268350769_2_alg».proof.Proof.KReg0
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx1_0 : ∀ t : Fin cfg1.N, win1_0.index t (0 : Fin 2) = t.val ∧ win1_0.index t (1 : Fin 2) = 0 :=
  (by decide +kernel : ∀ t : Fin grid1.N, _)
/-- The message window's block at point t is rows 5000 t … of the aggregated messages. -/
theorem iblk1_0_apply (c : Dev nD) (t : Fin cfg1.N) (y : S5000x128.Idx) (k : S50000x128.Idx)
    (hk0 : (k 0).val = t.val * 5000 + (y 0).val) (hk1 : (k 1).val = (y 1).val) :
    (iblk1 V c 0 t : Vec Ideal S5000x128 .f32) y = (V c main_v43 : S50000x128.Idx → Elt Ideal .f32) k := by
  have e0 := (idx1_0 t).1
  have e1 := (idx1_0 t).2
  unfold iblk1
  rw [View.read_apply]
  show (V c main_v43 : S50000x128.Idx → Elt Ideal .f32) _ = _
  refine congrArg (V c main_v43 : S50000x128.Idx → Elt Ideal .f32) ?_
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

theorem idx1_1 : ∀ t : Fin cfg1.N, win1_1.index t (0 : Fin 2) = t.val ∧ win1_1.index t (1 : Fin 2) = 0 :=
  (by decide +kernel : ∀ t : Fin grid1.N, _)
/-- The same for the transformed rows. -/
theorem iblk1_1_apply (c : Dev nD) (t : Fin cfg1.N) (y : S5000x128.Idx) (k : S50000x128.Idx)
    (hk0 : (k 0).val = t.val * 5000 + (y 0).val) (hk1 : (k 1).val = (y 1).val) :
    (iblk1 V c 1 t : Vec Ideal S5000x128 .f32) y = (V c main_v29 : S50000x128.Idx → Elt Ideal .f32) k := by
  have e0 := (idx1_1 t).1
  have e1 := (idx1_1 t).2
  unfold iblk1
  rw [View.read_apply]
  show (V c main_v29 : S50000x128.Idx → Elt Ideal .f32) _ = _
  refine congrArg (V c main_v29 : S50000x128.Idx → Elt Ideal .f32) ?_
  funext a
  apply Fin.ext
  match a with
  | ⟨0, _⟩ => show win1_1.index t 0 * 5000 + 1 * (y 0).val = (k 0).val; rw [e0, hk0]; omega
  | ⟨1, _⟩ => show win1_1.index t 1 * 128 + 1 * (y 1).val = (k 1).val; rw [e1, hk1]; omega

theorem idx1_2 : ∀ t : Fin cfg1.N, win1_2.index t (0 : Fin 2) = t.val ∧ win1_2.index t (1 : Fin 2) = 0 :=
  (by decide +kernel : ∀ t : Fin grid1.N, _)
/-- The same for the degree column. -/
theorem iblk1_2_apply (c : Dev nD) (t : Fin cfg1.N) (y : S5000x1.Idx) (k : S50000x1.Idx)
    (hk0 : (k 0).val = t.val * 5000 + (y 0).val) (hk1 : (k 1).val = (y 1).val) :
    (iblk1 V c 2 t : Vec Ideal S5000x1 .f32) y = (V c main_v26 : S50000x1.Idx → Elt Ideal .f32) k := by
  have e0 := (idx1_2 t).1
  have e1 := (idx1_2 t).2
  unfold iblk1
  rw [View.read_apply]
  show (V c main_v26 : S50000x1.Idx → Elt Ideal .f32) _ = _
  refine congrArg (V c main_v26 : S50000x1.Idx → Elt Ideal .f32) ?_
  funext a
  apply Fin.ext
  match a with
  | ⟨0, _⟩ => show win1_2.index t 0 * 5000 + 1 * (y 0).val = (k 0).val; rw [e0, hk0]; omega
  | ⟨1, _⟩ => show win1_2.index t 1 * 1 + 1 * (y 1).val = (k 1).val; rw [e1, hk1]; omega

theorem idx1_3 : ∀ t : Fin cfg1.N, win1_3.index t (0 : Fin 2) = 0 ∧ win1_3.index t (1 : Fin 2) = 0 :=
  (by decide +kernel : ∀ t : Fin grid1.N, _)
/-- The bias row is staged whole at every point. -/
theorem iblk1_3_apply (c : Dev nD) (t : Fin cfg1.N) (y : S1x128.Idx) :
    (iblk1 V c 3 t : Vec Ideal S1x128 .f32) y = (V c main_v44 : S1x128.Idx → Elt Ideal .f32) y := by
  have e0 := (idx1_3 t).1
  have e1 := (idx1_3 t).2
  unfold iblk1
  rw [View.read_apply]
  show (V c main_v44 : S1x128.Idx → Elt Ideal .f32) _ = _
  refine congrArg (V c main_v44 : S1x128.Idx → Elt Ideal .f32) ?_
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

theorem idx1_4 : ∀ t : Fin cfg1.N, win1_4.index t (0 : Fin 2) = t.val ∧ win1_4.index t (1 : Fin 2) = 0 :=
  (by decide +kernel : ∀ t : Fin grid1.N, _)
/-- The skip projection's block at point t is its rows 5000 t …. -/
theorem iblk1_4_apply (c : Dev nD) (t : Fin cfg1.N) (y : S5000x4.Idx) (k : S50000x4.Idx)
    (hk0 : (k 0).val = t.val * 5000 + (y 0).val) (hk1 : (k 1).val = (y 1).val) :
    (iblk1 V c 4 t : Vec Ideal S5000x4 .f32) y = (V c main_v30 : S50000x4.Idx → Elt Ideal .f32) k := by
  have e0 := (idx1_4 t).1
  have e1 := (idx1_4 t).2
  unfold iblk1
  rw [View.read_apply]
  show (V c main_v30 : S50000x4.Idx → Elt Ideal .f32) _ = _
  refine congrArg (V c main_v30 : S50000x4.Idx → Elt Ideal .f32) ?_
  funext a
  apply Fin.ext
  match a with
  | ⟨0, _⟩ => show win1_4.index t 0 * 5000 + 1 * (y 0).val = (k 0).val; rw [e0, hk0]; omega
  | ⟨1, _⟩ => show win1_4.index t 1 * 4 + 1 * (y 1).val = (k 1).val; rw [e1, hk1]; omega

theorem idx1_5 : ∀ t : Fin cfg1.N, win1_5.index t (0 : Fin 2) = 0 ∧ win1_5.index t (1 : Fin 2) = 0 :=
  (by decide +kernel : ∀ t : Fin grid1.N, _)
/-- The top weight piece is staged whole at every point. -/
theorem iblk1_5_apply (c : Dev nD) (t : Fin cfg1.N) (y : S128x132.Idx) :
    (iblk1 V c 5 t : Vec Ideal S128x132 .f32) y = (V c main_v45 : S128x132.Idx → Elt Ideal .f32) y := by
  have e0 := (idx1_5 t).1
  have e1 := (idx1_5 t).2
  unfold iblk1
  rw [View.read_apply]
  show (V c main_v45 : S128x132.Idx → Elt Ideal .f32) _ = _
  refine congrArg (V c main_v45 : S128x132.Idx → Elt Ideal .f32) ?_
  funext a
  apply Fin.ext
  match a with
  | ⟨0, _⟩ => show win1_5.index t 0 * 128 + 1 * (y 0).val = (y 0).val; rw [e0]; omega
  | ⟨1, _⟩ => show win1_5.index t 1 * 132 + 1 * (y 1).val = (y 1).val; rw [e1]; omega

theorem idx1_6 : ∀ t : Fin cfg1.N, win1_6.index t (0 : Fin 2) = 0 ∧ win1_6.index t (1 : Fin 2) = 0 :=
  (by decide +kernel : ∀ t : Fin grid1.N, _)
/-- The bottom weight piece is staged whole at every point. -/
theorem iblk1_6_apply (c : Dev nD) (t : Fin cfg1.N) (y : S4x132.Idx) :
    (iblk1 V c 6 t : Vec Ideal S4x132 .f32) y = (V c main_v46 : S4x132.Idx → Elt Ideal .f32) y := by
  have e0 := (idx1_6 t).1
  have e1 := (idx1_6 t).2
  unfold iblk1
  rw [View.read_apply]
  show (V c main_v46 : S4x132.Idx → Elt Ideal .f32) _ = _
  refine congrArg (V c main_v46 : S4x132.Idx → Elt Ideal .f32) ?_
  funext a
  apply Fin.ext
  match a with
  | ⟨0, _⟩ => show win1_6.index t 0 * 4 + 1 * (y 0).val = (y 0).val; rw [e0]; omega
  | ⟨1, _⟩ => show win1_6.index t 1 * 132 + 1 * (y 1).val = (y 1).val; rw [e1]; omega

theorem idx1_7 : ∀ t : Fin cfg1.N, win1_7.index t (0 : Fin 2) = t.val ∧ win1_7.index t (1 : Fin 2) = 0 :=
  (by decide +kernel : ∀ t : Fin grid1.N, _)

/-- What point t writes back is block t of the whole array of next-layer rows. -/
theorem flushed1 (c : Dev nD) (t : Fin cfg1.N) :
    (dat1 V c).flushed 7 t = ((cfg1.win 7).blk t).view.read (Elt Ideal)
      (Cert.SkipGcn.hidden 50000 128 4 132 (V c main_v43) (V c main_v29) (V c main_v26) (V c main_v44) (V c main_v30) (V c main_v45) (V c main_v46)) := by
  obtain ⟨e4, e5⟩ := idx1_7 t
  have hN : cfg1.N = 10 := N_1
  show (cfg1.win 7).cut (grid1.coords t) ((dat1 V c).after 7 t) = _
  rw [after1_7]
  unfold out1_7
  rw [View.canon_unit_zero hz2]
  simp only [View.ld_unit_zero (S := S5000x1) hz2, View.ld_unit_zero (S := S5000x128) hz2, View.ld_unit_zero (S := S1x128) hz2, View.ld_unit_zero (S := S5000x4) hz2, View.ld_unit_zero (S := S128x132) hz2, View.ld_unit_zero (S := S4x132) hz2]
  rw [pay1_eq]
  funext y
  obtain ⟨p, q, rfl⟩ : ∃ (p : Fin 5000) (q : Fin 132), y = ix2 p q :=
    ⟨⟨(y 0).val, (y 0).isLt⟩, ⟨(y 1).val, (y 1).isLt⟩, eq_ix2 y⟩
  have hr : t.val * 5000 + p.val < 50000 := by have := t.isLt; have := p.isLt; omega
  have hemb : ((cfg1.win 7).blk t).view.emb (ix2 p q) = ix2 (⟨t.val * 5000 + p.val, hr⟩ : Fin 50000) q := by
    funext a
    apply Fin.ext
    match a with
    | ⟨0, _⟩ => show win1_7.index t 0 * 5000 + 1 * p.val = t.val * 5000 + p.val; rw [e4]; omega
    | ⟨1, _⟩ => show win1_7.index t 1 * 132 + 1 * q.val = q.val; rw [e5]; omega
  show Cert.SkipGcn.hidden 5000 128 4 132 (iblk1 V c 0 t) (iblk1 V c 1 t) (iblk1 V c 2 t) (iblk1 V c 3 t) (iblk1 V c 4 t)
      (iblk1 V c 5 t) (iblk1 V c 6 t) (ix2 p q)
    = (Cert.SkipGcn.hidden 50000 128 4 132 (V c main_v43) (V c main_v29) (V c main_v26) (V c main_v44) (V c main_v30) (V c main_v45) (V c main_v46)) (((cfg1.win 7).blk t).view.emb (ix2 p q))
  rw [hemb]
  exact Cert.SkipGcn.hidden_entry _ _ _ _ _ _ _ _ _ _ _ _ _ _ p _ q
    (fun k => iblk1_0_apply V c t _ _ rfl rfl) (fun k => iblk1_1_apply V c t _ _ rfl rfl)
    (iblk1_2_apply V c t _ _ rfl rfl) (fun k => iblk1_3_apply V c t _)
    (fun k => iblk1_4_apply V c t _ _ rfl rfl) (fun k => iblk1_5_apply V c t _) (fun k => iblk1_6_apply V c t _)

/-- Every row of the result lies in the block of the point that is its quotient by 5000. -/
theorem cover1 (i : S50000x132.Idx) :
    ∃ t : Fin cfg1.N, (cfg1.win 7).flush t = true ∧ i ∈ ((cfg1.win 7).blk t).view.set := by
  have hN : cfg1.N = 10 := N_1
  have hi0 : (i 0).val < 50000 := (i 0).isLt
  have hi1 : (i 1).val < 132 := (i 1).isLt
  let t : Fin cfg1.N := ⟨(i 0).val / 5000, by omega⟩
  obtain ⟨e4, e5⟩ := idx1_7 t
  refine ⟨t, flush1_7 t, ?_⟩
  show i ∈ ((View.whole main_v47).slice (win1_7.rect t)).set
  rw [View.set_slice_whole, Rect.mem_set_unit]
  intro a
  match a with
  | ⟨0, _⟩ =>
    show win1_7.index t 0 * 5000 ≤ (i 0).val ∧ (i 0).val < win1_7.index t 0 * 5000 + 5000
    rw [e4]; show (i 0).val / 5000 * 5000 ≤ (i 0).val ∧ (i 0).val < (i 0).val / 5000 * 5000 + 5000; omega
  | ⟨1, _⟩ =>
    show win1_7.index t 1 * 132 ≤ (i 1).val ∧ (i 1).val < win1_7.index t 1 * 132 + 132
    rw [e5]; omega

/-- The result array after the region: the hidden layer times the top weights plus the skip projection times the bottom ones. -/
theorem final1 (c : Dev nD) :
    (dat1 V c).arrAt 7 cfg1.N = Cert.SkipGcn.hidden 50000 128 4 132 (V c main_v43) (V c main_v29) (V c main_v26) (V c main_v44) (V c main_v30) (V c main_v45) (V c main_v46) :=
  (dat1 V c).arrAt_eq_of_cover 7 _ (fun t _ => flushed1 V c t) cover1

end Cert.KernelIdeal.Hand

end
-- ==== Proof.Bridge1.lean ====
/-
  The fused hidden-layer region and the final region against the reference's stages.

  The reference forms the hidden layer on whole matrices (messages plus the node's own row over its degree plus the
  bias, the degree and the bias broadcast from vectors, under a maximum with zero), joins the skip projection onto it
  along the lanes and multiplies the joined matrix by the second weight matrix.  A sum over the 132 joined lanes splits
  into the sum over the first 128 and the sum over the last 4, and these are the kernel's two products with the top and
  bottom rows of the weights.  The output layer is the same combination without the maximum, joined with the skip
  projection.  The degree the reference recomputes for the second layer is the first layer's, term for term.
-/
import proofs.«118340_j2843268350769_2_alg».proof.Proof.Gen.ReferenceIdeal.Read
import proofs.«118340_j2843268350769_2_alg».proof.Proof.LibSkipGcn

noncomputable section

open scoped BigOperators

namespace Cert.Bridge

open Idealize.ShloMosaic Idealize.ShloMosaic.ValueIdx Cert.ReferenceIdeal Cert.ReferenceIdeal.Gen Cert.ReferenceIdeal.Read

/-- The reference's first layer before its activation. -/
theorem v49_eq (x0 : (⟨S2x800000, .i32⟩ : BufTy).Contents (Elt Ideal)) (x1 : FVec Ideal S50000x128 .f32) (x3 : FVec Ideal S128x128 .f32) (x4 : FVec Ideal S128 .f32) :
    val_main_v49 (F := Ideal) x0 x1 x3 x4
      = Cert.SkipGcn.selfV 50000 128 (val_main_v40 (F := Ideal) x0 x1 x3) (val_main_v5 (F := Ideal) x1 x3)
          (val_main_v11 (F := Ideal) x0) x4 :=
  Cert.SkipGcn.selfV_of_host (A := 50000) (N := 128) _ _ _ _ bcast_S_S50000 bcast_S50000_S50000x1_0
    bcast_S50000x1_S50000x128_0_1 bcast_S128_S1x128_1 bcast_S1x128_S50000x128_0_1

/-- The reference's hidden layer. -/
theorem v50_eq (x0 : (⟨S2x800000, .i32⟩ : BufTy).Contents (Elt Ideal)) (x1 : FVec Ideal S50000x128 .f32) (x3 : FVec Ideal S128x128 .f32) (x4 : FVec Ideal S128 .f32) :
    val_main_v50 (F := Ideal) x0 x1 x3 x4
      = Cert.SkipGcn.relu (Cert.SkipGcn.selfV 50000 128 (val_main_v40 (F := Ideal) x0 x1 x3)
          (val_main_v5 (F := Ideal) x1 x3) (val_main_v11 (F := Ideal) x0) x4) := by
  rw [← v49_eq]
  exact Cert.SkipGcn.relu_of_host _ bcast_S_S50000x128

/-- The reference's second-layer product is the plain sum over the 132 joined lanes. -/
theorem v52_eq_lin (x0 : (⟨S2x800000, .i32⟩ : BufTy).Contents (Elt Ideal)) (x1 : FVec Ideal S50000x128 .f32) (x2 : FVec Ideal S128x4 .f32) (x3 : FVec Ideal S128x128 .f32) (x4 : FVec Ideal S128 .f32) (x5 : FVec Ideal S132x132 .f32) :
    val_main_v52 (F := Ideal) x0 x1 x2 x3 x4 x5
      = Cert.Gcn.lin 50000 132 132 (val_main_v51 (F := Ideal) x0 x1 x2 x3 x4) x5 :=
  Cert.Gcn.lin_of_dotGeneral (A := 50000) (K := 132) (N := 132) _ x5

/-- A matrix joined from a wide and a narrow piece, times the weights, is the wide piece times the top rows plus the
    narrow piece times the bottom rows. -/
theorem join_product (a : FVec Ideal S50000x128 .f32) (b : FVec Ideal S50000x4 .f32) (x5 : FVec Ideal S132x132 .f32)
    (hs1 : (⟨2, ![132, 132]⟩ : Shape).Slices ![0, 0] (⟨2, ![128, 132]⟩ : Shape)) (hs2 : (⟨2, ![132, 132]⟩ : Shape).Slices ![128, 0] (⟨2, ![4, 132]⟩ : Shape)) :
    addf (Cert.Gcn.lin 50000 128 132 a (extractStridedSlice (⟨2, ![128, 132]⟩ : Shape) ![0, 0] x5 hs1)) (Cert.Gcn.lin 50000 4 132 b (extractStridedSlice (⟨2, ![4, 132]⟩ : Shape) ![128, 0] x5 hs2))
      = Cert.Gcn.lin 50000 132 132 (concatenate S50000x132 1 [⟨S50000x128, a⟩, ⟨S50000x4, b⟩] concatenates_S50000x128_S50000x4_S50000x132_d1) x5 := by
  funext j
  obtain ⟨r, n, rfl⟩ : ∃ (r : Fin 50000) (n : Fin 132), j = ix2 r n := ⟨j 0, j 1, eq_ix2 j⟩
  show Cert.Gcn.lin 50000 128 132 a (extractStridedSlice (⟨2, ![128, 132]⟩ : Shape) ![0, 0] x5 hs1) (ix2 r n) + Cert.Gcn.lin 50000 4 132 b (extractStridedSlice (⟨2, ![4, 132]⟩ : Shape) ![128, 0] x5 hs2) (ix2 r n)
    = Cert.Gcn.lin 50000 132 132 (concatenate S50000x132 1 [⟨S50000x128, a⟩, ⟨S50000x4, b⟩] concatenates_S50000x128_S50000x4_S50000x132_d1) x5 (ix2 r n)
  refine (Cert.SkipGcn.lin_join_entry (A := 50000) (A' := 50000) (K1 := 128) (K2 := 4) (K := 132) (N := 132) rfl
    (concatenate S50000x132 1 [⟨S50000x128, a⟩, ⟨S50000x4, b⟩] concatenates_S50000x128_S50000x4_S50000x132_d1) x5 a (extractStridedSlice (⟨2, ![128, 132]⟩ : Shape) ![0, 0] x5 hs1) b (extractStridedSlice (⟨2, ![4, 132]⟩ : Shape) ![128, 0] x5 hs2) r r n ?_ ?_ ?_ ?_).symm
  · intro k k' e
    exact Cert.LibJoin.join_left a b concatenates_S50000x128_S50000x4_S50000x132_d1 r k' k e.symm
  · intro k k' e
    exact (extractStridedSlice_apply ![0, 0] x5 hs1 (ix2 k n) (ix2 k' n) (fun i => by
      match i with
      | ⟨0, _⟩ => show k'.val = 0 + k.val; omega
      | ⟨1, _⟩ => show n.val = 0 + n.val; omega)).symm
  · intro k k' e
    exact Cert.LibJoin.join_right a b concatenates_S50000x128_S50000x4_S50000x132_d1 r k' k (by show k.val + 128 = k'.val; omega)
  · intro k k' e
    exact (extractStridedSlice_apply ![128, 0] x5 hs2 (ix2 k n) (ix2 k' n) (fun i => by
      match i with
      | ⟨0, _⟩ => show k'.val = 128 + k.val; omega
      | ⟨1, _⟩ => show n.val = 0 + n.val; omega)).symm

/-- The hidden layer with the degree a column and the bias a row, both cast from vectors, is the vector form. -/
theorem hidden_rows_eq (agg h : FVec Ideal S50000x128 .f32) (d : FVec Ideal S50000 .f32) (x4 : FVec Ideal S128 .f32)
    (hd : (⟨1, ![50000]⟩ : Shape).ShapeCasts (⟨2, ![50000, 1]⟩ : Shape)) (hb : (⟨1, ![128]⟩ : Shape).ShapeCasts (⟨2, ![1, 128]⟩ : Shape)) :
    Cert.SkipGcn.relu (Cert.SkipGcn.selfC 50000 128 agg h (shapeCast (⟨2, ![50000, 1]⟩ : Shape) d hd) (shapeCast (⟨2, ![1, 128]⟩ : Shape) x4 hb))
      = Cert.SkipGcn.relu (Cert.SkipGcn.selfV 50000 128 agg h d x4) := by
  funext j
  obtain ⟨r, k, rfl⟩ : ∃ (r : Fin 50000) (k : Fin 128), j = ix2 r k := ⟨j 0, j 1, eq_ix2 j⟩
  exact congrArg (max · (Ideal.ofBits .f32 0x00000000#32)) (Cert.SkipGcn.selfC_of_casts agg h d x4 hd hb r k)

/-- The fused region's result is the reference's second-layer product. -/
theorem h2_eq (x0 : (⟨S2x800000, .i32⟩ : BufTy).Contents (Elt Ideal)) (x1 : FVec Ideal S50000x128 .f32) (x2 : FVec Ideal S128x4 .f32) (x3 : FVec Ideal S128x128 .f32) (x4 : FVec Ideal S128 .f32) (x5 : FVec Ideal S132x132 .f32)
    (hd : (⟨1, ![50000]⟩ : Shape).ShapeCasts (⟨2, ![50000, 1]⟩ : Shape)) (hb : (⟨1, ![128]⟩ : Shape).ShapeCasts (⟨2, ![1, 128]⟩ : Shape))
    (hs1 : (⟨2, ![132, 132]⟩ : Shape).Slices ![0, 0] (⟨2, ![128, 132]⟩ : Shape)) (hs2 : (⟨2, ![132, 132]⟩ : Shape).Slices ![128, 0] (⟨2, ![4, 132]⟩ : Shape)) :
    Cert.SkipGcn.hidden 50000 128 4 132 (val_main_v40 (F := Ideal) x0 x1 x3) (val_main_v5 (F := Ideal) x1 x3)
        (shapeCast (⟨2, ![50000, 1]⟩ : Shape) (val_main_v11 (F := Ideal) x0) hd) (shapeCast (⟨2, ![1, 128]⟩ : Shape) x4 hb)
        (val_main_v4 (F := Ideal) x1 x2) (extractStridedSlice (⟨2, ![128, 132]⟩ : Shape) ![0, 0] x5 hs1) (extractStridedSlice (⟨2, ![4, 132]⟩ : Shape) ![128, 0] x5 hs2)
      = val_main_v52 (F := Ideal) x0 x1 x2 x3 x4 x5 := by
  rw [v52_eq_lin]
  show addf (Cert.Gcn.lin 50000 128 132 (Cert.SkipGcn.relu (Cert.SkipGcn.selfC 50000 128 (val_main_v40 (F := Ideal) x0 x1 x3)
        (val_main_v5 (F := Ideal) x1 x3) (shapeCast (⟨2, ![50000, 1]⟩ : Shape) (val_main_v11 (F := Ideal) x0) hd) (shapeCast (⟨2, ![1, 128]⟩ : Shape) x4 hb)))
        (extractStridedSlice (⟨2, ![128, 132]⟩ : Shape) ![0, 0] x5 hs1)) (Cert.Gcn.lin 50000 4 132 (val_main_v4 (F := Ideal) x1 x2) (extractStridedSlice (⟨2, ![4, 132]⟩ : Shape) ![128, 0] x5 hs2))
    = Cert.Gcn.lin 50000 132 132 (concatenate S50000x132 1 [⟨S50000x128, (val_main_v50 (F := Ideal) x0 x1 x3 x4)⟩, ⟨S50000x4, (val_main_v4 (F := Ideal) x1 x2)⟩] concatenates_S50000x128_S50000x4_S50000x132_d1) x5
  rw [v50_eq, hidden_rows_eq]
  exact join_product _ _ x5 hs1 hs2

/-- The degree recomputed for the second layer is the first layer's. -/
theorem v58_eq (x0 : (⟨S2x800000, .i32⟩ : BufTy).Contents (Elt Ideal)) : val_main_v58 (F := Ideal) x0 = val_main_v11 (F := Ideal) x0 := rfl

/-- The reference's output layer. -/
theorem v96_eq (x0 : (⟨S2x800000, .i32⟩ : BufTy).Contents (Elt Ideal)) (x1 : FVec Ideal S50000x128 .f32) (x2 : FVec Ideal S128x4 .f32) (x3 : FVec Ideal S128x128 .f32) (x4 : FVec Ideal S128 .f32) (x5 : FVec Ideal S132x132 .f32) (x6 : FVec Ideal S132 .f32) :
    val_main_v96 (F := Ideal) x0 x1 x2 x3 x4 x5 x6
      = Cert.SkipGcn.selfV 50000 132 (val_main_v87 (F := Ideal) x0 x1 x2 x3 x4 x5) (val_main_v52 (F := Ideal) x0 x1 x2 x3 x4 x5)
          (val_main_v11 (F := Ideal) x0) x6 := by
  rw [← v58_eq]
  exact Cert.SkipGcn.selfV_of_host (A := 50000) (N := 132) _ _ _ _ bcast_S_S50000 bcast_S50000_S50000x1_0
    bcast_S50000x1_S50000x132_0_1 bcast_S132_S1x132_1 bcast_S1x132_S50000x132_0_1

/-- The final region's result is the reference's result. -/
theorem out_eq (x0 : (⟨S2x800000, .i32⟩ : BufTy).Contents (Elt Ideal)) (x1 : FVec Ideal S50000x128 .f32) (x2 : FVec Ideal S128x4 .f32) (x3 : FVec Ideal S128x128 .f32) (x4 : FVec Ideal S128 .f32) (x5 : FVec Ideal S132x132 .f32) (x6 : FVec Ideal S132 .f32)
    (hd : (⟨1, ![50000]⟩ : Shape).ShapeCasts (⟨2, ![50000, 1]⟩ : Shape)) (hb : (⟨1, ![132]⟩ : Shape).ShapeCasts (⟨2, ![1, 132]⟩ : Shape)) :
    Cert.SkipGcn.joinRows 50000 132 4 136 rfl
        (Cert.SkipGcn.selfC 50000 132 (val_main_v87 (F := Ideal) x0 x1 x2 x3 x4 x5) (val_main_v52 (F := Ideal) x0 x1 x2 x3 x4 x5)
          (shapeCast (⟨2, ![50000, 1]⟩ : Shape) (val_main_v11 (F := Ideal) x0) hd) (shapeCast (⟨2, ![1, 132]⟩ : Shape) x6 hb))
        (val_main_v4 (F := Ideal) x1 x2)
      = val_main_v97 (F := Ideal) x0 x1 x2 x3 x4 x5 x6 := by
  have e : Cert.SkipGcn.selfC 50000 132 (val_main_v87 (F := Ideal) x0 x1 x2 x3 x4 x5) (val_main_v52 (F := Ideal) x0 x1 x2 x3 x4 x5)
      (shapeCast (⟨2, ![50000, 1]⟩ : Shape) (val_main_v11 (F := Ideal) x0) hd) (shapeCast (⟨2, ![1, 132]⟩ : Shape) x6 hb)
      = val_main_v96 (F := Ideal) x0 x1 x2 x3 x4 x5 x6 := by
    rw [v96_eq]
    funext j
    obtain ⟨r, q, rfl⟩ : ∃ (r : Fin 50000) (q : Fin 132), j = ix2 r q := ⟨j 0, j 1, eq_ix2 j⟩
    exact Cert.SkipGcn.selfC_of_casts _ _ _ x6 hd hb r q
  rw [e]
  exact (Cert.SkipGcn.concatenate_eq_joinRows (A := 50000) (N := 132) (K2 := 4) (C := 136) rfl _ _
    concatenates_S50000x132_S50000x4_S50000x136_d1).symm

end Cert.Bridge

end
-- ==== Proof.KHost2.lean ====
/-
  From the fused hidden-layer region to the final region: the buffers the last region is entered with.

  The fused region leaves the second layer's transformed rows, which are the reference's product of the joined hidden
  layer with the second weight matrix; its input arrays and every other buffer keep their contents.  The third stretch
  gathers those rows at the source of every edge, scales them by the same edge coefficient and adds them up at the
  targets, and lays the second bias out as a row.  The reference does the same to the same array with a coefficient it
  recomputes by the same operations, so the second layer's messages are the reference's.
-/
import proofs.«118340_j2843268350769_2_alg».proof.Proof.Gen.KernelIdeal.Frame
import proofs.«118340_j2843268350769_2_alg».proof.Proof.Gen.ReferenceIdeal.Read
import proofs.«118340_j2843268350769_2_alg».proof.Proof.KHost1
import proofs.«118340_j2843268350769_2_alg».proof.Proof.KReg1
import proofs.«118340_j2843268350769_2_alg».proof.Proof.Bridge1

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

open Idealize.ShloMosaic.StableHlo

variable (m : (ℓ : Loc nD τ sig) → Buf (Elt Ideal) ℓ) (ρ : Dev nD → PrngReg) (c : Dev nD)

/-! ## After the fused region -/

theorem W4_v1 : W4 m ρ c (Proc.devRef .tc main_v1) = (Cert.ReferenceIdeal.Read.val_main_v1 (F := Ideal) (m ((c : Thread nD τ).loc main_arg0))) :=
  (W4_of_ne m ρ c main_v1 (by decide)).trans (W3_v1 m ρ c)

theorem W4_v3 : W4 m ρ c (Proc.devRef .tc main_v3) = (Cert.ReferenceIdeal.Read.val_main_v3 (F := Ideal) (m ((c : Thread nD τ).loc main_arg0))) :=
  (W4_of_ne m ρ c main_v3 (by decide)).trans (W3_v3 m ρ c)

theorem W4_v25 : W4 m ρ c (Proc.devRef .tc main_v25) = (Cert.ReferenceIdeal.Read.val_main_v27 (F := Ideal) (m ((c : Thread nD τ).loc main_arg0))) :=
  (W4_of_ne m ρ c main_v25 (by decide)).trans (W3_v25 m ρ c)

theorem W4_arg6 : W4 m ρ c (Proc.devRef .tc main_arg6) = (m ((c : Thread nD τ).loc main_arg6)) :=
  (W4_of_ne m ρ c main_arg6 (by decide)).trans (W3_arg6 m ρ c)

/-- The degree column, an input of the region, ends as it was. -/
theorem W4_v26 : W4 m ρ c (Proc.devRef .tc main_v26) = (shapeCast S50000x1 (Cert.ReferenceIdeal.Read.val_main_v11 (F := Ideal) (m ((c : Thread nD τ).loc main_arg0))) shapeCasts_S50000_S50000x1) :=
  (W4_arr m ρ c 2).trans (((dat1 (V3 m ρ) c).arrAt_in 2 rfl _).trans ((A_eq1 (V3 m ρ) c 2).trans (W3_v26 m ρ c)))

/-- So does the skip projection. -/
theorem W4_v30 : W4 m ρ c (Proc.devRef .tc main_v30) = (Cert.ReferenceIdeal.Read.val_main_v4 (F := Ideal) (m ((c : Thread nD τ).loc main_arg1)) (m ((c : Thread nD τ).loc main_arg2))) :=
  (W4_arr m ρ c 4).trans (((dat1 (V3 m ρ) c).arrAt_in 4 rfl _).trans ((A_eq1 (V3 m ρ) c 4).trans (W3_v30 m ρ c)))

/-- The fused region's result: the reference's second-layer product. -/
theorem W4_v47 : W4 m ρ c (Proc.devRef .tc main_v47) = (Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 7).trans ((final1 (V3 m ρ) c).trans ?_)
  rw [show V3 m ρ c main_v43 = _ from W3_v43 m ρ c, show V3 m ρ c main_v29 = _ from W3_v29 m ρ c,
    show V3 m ρ c main_v26 = _ from W3_v26 m ρ c, show V3 m ρ c main_v44 = _ from W3_v44 m ρ c,
    show V3 m ρ c main_v30 = _ from W3_v30 m ρ c, show V3 m ρ c main_v45 = _ from W3_v45 m ρ c,
    show V3 m ρ c main_v46 = _ from W3_v46 m ρ c]
  exact Cert.Bridge.h2_eq _ _ _ _ _ _ shapeCasts_S50000_S50000x1 shapeCasts_S128_S1x128 slices_S132x132_S128x132_0_0
    slices_S132x132_S4x132_128_0

/-! ## At the entry of the final region -/

/-- The second layer's transformed rows are untouched. -/
theorem W5_v47 : W5 m ρ c (Proc.devRef .tc main_v47) = (Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  dsimp only [W5, hostOps2]
  after_results_simp
  exact W4_v47 m ρ c

/-- The degree column is untouched. -/
theorem W5_v26 : W5 m ρ c (Proc.devRef .tc main_v26) = (shapeCast S50000x1 (Cert.ReferenceIdeal.Read.val_main_v11 (F := Ideal) (m ((c : Thread nD τ).loc main_arg0))) shapeCasts_S50000_S50000x1) := by
  dsimp only [W5, hostOps2]
  after_results_simp
  exact W4_v26 m ρ c

/-- The skip projection is untouched. -/
theorem W5_v30 : W5 m ρ c (Proc.devRef .tc main_v30) = (Cert.ReferenceIdeal.Read.val_main_v4 (F := Ideal) (m ((c : Thread nD τ).loc main_arg1)) (m ((c : Thread nD τ).loc main_arg2))) := by
  dsimp only [W5, hostOps2]
  after_results_simp
  exact W4_v30 m ρ c

/-- The second bias as a row. -/
theorem W5_v61 : W5 m ρ c (Proc.devRef .tc main_v61) = shapeCast S1x132 (m ((c : Thread nD τ).loc main_arg6)) shapeCasts_S132_S1x132 := by
  dsimp only [W5, hostOps2]
  after_results_simp
  rw [W4_arg6]
  rfl

set_option maxHeartbeats 4000000 in
/-- The second layer's aggregated messages: the reference's. -/
theorem W5_v60 : W5 m ρ c (Proc.devRef .tc main_v60) = (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  dsimp only [W5, hostOps2]
  after_results_simp
  rw [W4_v47, W4_v1, W4_v3, W4_v25]
  rfl

end Cert.KernelIdeal.Hand

end
-- ==== Proof.KReg2.lean ====
/-
  The final region: what the program's result array holds when it ends.

  At point t the region stages rows 5000 t … of the second layer's aggregated messages, of its transformed rows, of the
  degree column and of the skip projection, and the whole bias row, and writes back rows 5000 t … of the result: the
  self-loop combination in lanes 0 … 131 and the skip projection in lanes 132 … 135.  Each entry depends on its own
  row of the row-indexed operands only, so each written block is the block of the whole array, and the ten blocks
  cover it.  Stated at any contents the region is entered with.
-/
import proofs.«118340_j2843268350769_2_alg».proof.Proof.Gen.KernelIdeal.Frame
import proofs.«118340_j2843268350769_2_alg».proof.Proof.KBody
import proofs.«118340_j2843268350769_2_alg».proof.Proof.KReg0
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The final body's join, as a function of the index. -/
theorem pay2_join (v0 : Vec Ideal S5000x1 .f32) (v4 v6 : Vec Ideal S5000x132 .f32) (v11 : Vec Ideal S1x132 .f32)
    (v15 : Vec Ideal S5000x4 .f32) :
    k2_pay1 (F := Ideal) v0 v4 v6 v11 v15
      = Cert.SkipGcn.joinRows 5000 132 4 136 rfl (Cert.SkipGcn.selfC 5000 132 v4 v6 v0 v11) v15 :=
  (pay2_eq v0 v4 v6 v11 v15).trans
    (Cert.SkipGcn.concatenate_eq_joinRows (A := 5000) (N := 132) (K2 := 4) (C := 136) rfl _ _ concatenates_S5000x132_S5000x4_S5000x136_d1)

theorem idx2_0 : ∀ t : Fin cfg2.N, win2_0.index t (0 : Fin 2) = t.val ∧ win2_0.index t (1 : Fin 2) = 0 :=
  (by decide +kernel : ∀ t : Fin grid2.N, _)
/-- The message window's block at point t is rows 5000 t … of the aggregated messages. -/
theorem iblk2_0_apply (c : Dev nD) (t : Fin cfg2.N) (y : S5000x132.Idx) (k : S50000x132.Idx)
    (hk0 : (k 0).val = t.val * 5000 + (y 0).val) (hk1 : (k 1).val = (y 1).val) :
    (iblk2 V c 0 t : Vec Ideal S5000x132 .f32) y = (V c main_v60 : S50000x132.Idx → Elt Ideal .f32) k := by
  have e0 := (idx2_0 t).1
  have e1 := (idx2_0 t).2
  unfold iblk2
  rw [View.read_apply]
  show (V c main_v60 : S50000x132.Idx → Elt Ideal .f32) _ = _
  refine congrArg (V c main_v60 : S50000x132.Idx → Elt Ideal .f32) ?_
  funext a
  apply Fin.ext
  match a with
  | ⟨0, _⟩ => show win2_0.index t 0 * 5000 + 1 * (y 0).val = (k 0).val; rw [e0, hk0]; omega
  | ⟨1, _⟩ => show win2_0.index t 1 * 132 + 1 * (y 1).val = (k 1).val; rw [e1, hk1]; omega

theorem idx2_1 : ∀ t : Fin cfg2.N, win2_1.index t (0 : Fin 2) = t.val ∧ win2_1.index t (1 : Fin 2) = 0 :=
  (by decide +kernel : ∀ t : Fin grid2.N, _)
/-- The same for the transformed rows. -/
theorem iblk2_1_apply (c : Dev nD) (t : Fin cfg2.N) (y : S5000x132.Idx) (k : S50000x132.Idx)
    (hk0 : (k 0).val = t.val * 5000 + (y 0).val) (hk1 : (k 1).val = (y 1).val) :
    (iblk2 V c 1 t : Vec Ideal S5000x132 .f32) y = (V c main_v47 : S50000x132.Idx → Elt Ideal .f32) k := by
  have e0 := (idx2_1 t).1
  have e1 := (idx2_1 t).2
  unfold iblk2
  rw [View.read_apply]
  show (V c main_v47 : S50000x132.Idx → Elt Ideal .f32) _ = _
  refine congrArg (V c main_v47 : S50000x132.Idx → Elt Ideal .f32) ?_
  funext a
  apply Fin.ext
  match a with
  | ⟨0, _⟩ => show win2_1.index t 0 * 5000 + 1 * (y 0).val = (k 0).val; rw [e0, hk0]; omega
  | ⟨1, _⟩ => show win2_1.index t 1 * 132 + 1 * (y 1).val = (k 1).val; rw [e1, hk1]; omega

theorem idx2_2 : ∀ t : Fin cfg2.N, win2_2.index t (0 : Fin 2) = t.val ∧ win2_2.index t (1 : Fin 2) = 0 :=
  (by decide +kernel : ∀ t : Fin grid2.N, _)
/-- The same for the degree column. -/
theorem iblk2_2_apply (c : Dev nD) (t : Fin cfg2.N) (y : S5000x1.Idx) (k : S50000x1.Idx)
    (hk0 : (k 0).val = t.val * 5000 + (y 0).val) (hk1 : (k 1).val = (y 1).val) :
    (iblk2 V c 2 t : Vec Ideal S5000x1 .f32) y = (V c main_v26 : S50000x1.Idx → Elt Ideal .f32) k := by
  have e0 := (idx2_2 t).1
  have e1 := (idx2_2 t).2
  unfold iblk2
  rw [View.read_apply]
  show (V c main_v26 : S50000x1.Idx → Elt Ideal .f32) _ = _
  refine congrArg (V c main_v26 : S50000x1.Idx → Elt Ideal .f32) ?_
  funext a
  apply Fin.ext
  match a with
  | ⟨0, _⟩ => show win2_2.index t 0 * 5000 + 1 * (y 0).val = (k 0).val; rw [e0, hk0]; omega
  | ⟨1, _⟩ => show win2_2.index t 1 * 1 + 1 * (y 1).val = (k 1).val; rw [e1, hk1]; omega

theorem idx2_3 : ∀ t : Fin cfg2.N, win2_3.index t (0 : Fin 2) = 0 ∧ win2_3.index t (1 : Fin 2) = 0 :=
  (by decide +kernel : ∀ t : Fin grid2.N, _)
/-- The bias row is staged whole at every point. -/
theorem iblk2_3_apply (c : Dev nD) (t : Fin cfg2.N) (y : S1x132.Idx) :
    (iblk2 V c 3 t : Vec Ideal S1x132 .f32) y = (V c main_v61 : S1x132.Idx → Elt Ideal .f32) y := by
  have e0 := (idx2_3 t).1
  have e1 := (idx2_3 t).2
  unfold iblk2
  rw [View.read_apply]
  show (V c main_v61 : S1x132.Idx → Elt Ideal .f32) _ = _
  refine congrArg (V c main_v61 : S1x132.Idx → Elt Ideal .f32) ?_
  funext a
  apply Fin.ext
  match a with
  | ⟨0, _⟩ => show win2_3.index t 0 * 1 + 1 * (y 0).val = (y 0).val; rw [e0]; omega
  | ⟨1, _⟩ => show win2_3.index t 1 * 132 + 1 * (y 1).val = (y 1).val; rw [e1]; omega

theorem idx2_4 : ∀ t : Fin cfg2.N, win2_4.index t (0 : Fin 2) = t.val ∧ win2_4.index t (1 : Fin 2) = 0 :=
  (by decide +kernel : ∀ t : Fin grid2.N, _)
/-- The skip projection's block at point t is its rows 5000 t …. -/
theorem iblk2_4_apply (c : Dev nD) (t : Fin cfg2.N) (y : S5000x4.Idx) (k : S50000x4.Idx)
    (hk0 : (k 0).val = t.val * 5000 + (y 0).val) (hk1 : (k 1).val = (y 1).val) :
    (iblk2 V c 4 t : Vec Ideal S5000x4 .f32) y = (V c main_v30 : S50000x4.Idx → Elt Ideal .f32) k := by
  have e0 := (idx2_4 t).1
  have e1 := (idx2_4 t).2
  unfold iblk2
  rw [View.read_apply]
  show (V c main_v30 : S50000x4.Idx → Elt Ideal .f32) _ = _
  refine congrArg (V c main_v30 : S50000x4.Idx → Elt Ideal .f32) ?_
  funext a
  apply Fin.ext
  match a with
  | ⟨0, _⟩ => show win2_4.index t 0 * 5000 + 1 * (y 0).val = (k 0).val; rw [e0, hk0]; omega
  | ⟨1, _⟩ => show win2_4.index t 1 * 4 + 1 * (y 1).val = (k 1).val; rw [e1, hk1]; omega

theorem idx2_5 : ∀ t : Fin cfg2.N, win2_5.index t (0 : Fin 2) = t.val ∧ win2_5.index t (1 : Fin 2) = 0 :=
  (by decide +kernel : ∀ t : Fin grid2.N, _)

/-- What point t writes back is block t of the whole result. -/
theorem flushed2 (c : Dev nD) (t : Fin cfg2.N) :
    (dat2 V c).flushed 5 t = ((cfg2.win 5).blk t).view.read (Elt Ideal)
      (Cert.SkipGcn.joinRows 50000 132 4 136 rfl (Cert.SkipGcn.selfC 50000 132 (V c main_v60) (V c main_v47) (V c main_v26) (V c main_v61)) (V c main_v30)) := by
  obtain ⟨e4, e5⟩ := idx2_5 t
  have hN : cfg2.N = 10 := N_2
  show (cfg2.win 5).cut (grid2.coords t) ((dat2 V c).after 5 t) = _
  rw [after2_5]
  unfold out2_5
  rw [View.canon_unit_zero hz2]
  simp only [View.ld_unit_zero (S := S5000x1) hz2, View.ld_unit_zero (S := S5000x132) hz2, View.ld_unit_zero (S := S1x132) hz2, View.ld_unit_zero (S := S5000x4) hz2]
  rw [pay2_join]
  funext y
  obtain ⟨p, q, rfl⟩ : ∃ (p : Fin 5000) (q : Fin 136), y = ix2 p q :=
    ⟨⟨(y 0).val, (y 0).isLt⟩, ⟨(y 1).val, (y 1).isLt⟩, eq_ix2 y⟩
  have hr : t.val * 5000 + p.val < 50000 := by have := t.isLt; have := p.isLt; omega
  have hemb : ((cfg2.win 5).blk t).view.emb (ix2 p q) = ix2 (⟨t.val * 5000 + p.val, hr⟩ : Fin 50000) q := by
    funext a
    apply Fin.ext
    match a with
    | ⟨0, _⟩ => show win2_5.index t 0 * 5000 + 1 * p.val = t.val * 5000 + p.val; rw [e4]; omega
    | ⟨1, _⟩ => show win2_5.index t 1 * 136 + 1 * q.val = q.val; rw [e5]; omega
  show Cert.SkipGcn.joinRows 5000 132 4 136 rfl (Cert.SkipGcn.selfC 5000 132 (iblk2 V c 0 t) (iblk2 V c 1 t) (iblk2 V c 2 t) (iblk2 V c 3 t))
      (iblk2 V c 4 t) (ix2 p q)
    = (Cert.SkipGcn.joinRows 50000 132 4 136 rfl (Cert.SkipGcn.selfC 50000 132 (V c main_v60) (V c main_v47) (V c main_v26) (V c main_v61)) (V c main_v30)) (((cfg2.win 5).blk t).view.emb (ix2 p q))
  rw [hemb]
  exact Cert.SkipGcn.joinRows_entry rfl _ _ _ _ p ⟨t.val * 5000 + p.val, hr⟩ q
    (fun n => Cert.SkipGcn.selfC_entry _ _ _ _ _ _ _ _ p ⟨t.val * 5000 + p.val, hr⟩ n (iblk2_0_apply V c t _ _ rfl rfl) (iblk2_1_apply V c t _ _ rfl rfl)
      (iblk2_2_apply V c t _ _ rfl rfl) (iblk2_3_apply V c t _))
    (fun n => iblk2_4_apply V c t _ _ rfl rfl)

/-- Every row of the result lies in the block of the point that is its quotient by 5000. -/
theorem cover2 (i : S50000x136.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 136 := (i 1).isLt
  let t : Fin cfg2.N := ⟨(i 0).val / 5000, by omega⟩
  obtain ⟨e4, e5⟩ := idx2_5 t
  refine ⟨t, flush2_5 t, ?_⟩
  show i ∈ ((View.whole main_v62).slice (win2_5.rect t)).set
  rw [View.set_slice_whole, Rect.mem_set_unit]
  intro a
  match a with
  | ⟨0, _⟩ =>
    show win2_5.index t 0 * 5000 ≤ (i 0).val ∧ (i 0).val < win2_5.index t 0 * 5000 + 5000
    rw [e4]; show (i 0).val / 5000 * 5000 ≤ (i 0).val ∧ (i 0).val < (i 0).val / 5000 * 5000 + 5000; omega
  | ⟨1, _⟩ =>
    show win2_5.index t 1 * 136 ≤ (i 1).val ∧ (i 1).val < win2_5.index t 1 * 136 + 136
    rw [e5]; omega

/-- The result array after the region: the output layer's combination joined with the skip projection. -/
theorem final2 (c : Dev nD) :
    (dat2 V c).arrAt 5 cfg2.N = Cert.SkipGcn.joinRows 50000 132 4 136 rfl (Cert.SkipGcn.selfC 50000 132 (V c main_v60) (V c main_v47) (V c main_v26) (V c main_v61)) (V c main_v30) :=
  (dat2 V c).arrAt_eq_of_cover 5 _ (fun t _ => flushed2 V c t) cover2

end Cert.KernelIdeal.Hand

end
-- ==== Proof.KValue.lean ====
/-
  The idealized kernel program's result as the reference's value of its last step.

  The final region leaves, in lanes 0 … 131, the second layer's messages plus the node's own transformed row over its
  degree plus the bias, and in lanes 132 … 135 the skip projection; its operands at entry are the reference's messages,
  product, degree and skip projection.  So the result array ends holding the reference's result as a function of the
  argument arrays, and the arguments end as launched.
-/
import proofs.«118340_j2843268350769_2_alg».proof.Proof.Gen.KernelIdeal.Frame
import proofs.«118340_j2843268350769_2_alg».proof.Proof.Gen.ReferenceIdeal.Read
import proofs.«118340_j2843268350769_2_alg».proof.Proof.KRun
import proofs.«118340_j2843268350769_2_alg».proof.Proof.KHost2
import proofs.«118340_j2843268350769_2_alg».proof.Proof.KReg2
import proofs.«118340_j2843268350769_2_alg».proof.Proof.Bridge1

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array at the last boundary. -/
theorem W6_v62 (c : Dev nD) : W6 m ρ c (Proc.devRef .tc main_v62) = (Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W6_arr m ρ c 5).trans ((final2 (V5 m ρ) c).trans ?_)
  rw [show V5 m ρ c main_v60 = _ from W5_v60 m ρ c, show V5 m ρ c main_v47 = _ from W5_v47 m ρ c,
    show V5 m ρ c main_v26 = _ from W5_v26 m ρ c, show V5 m ρ c main_v61 = _ from W5_v61 m ρ c,
    show V5 m ρ c main_v30 = _ from W5_v30 m ρ c]
  exact Cert.Bridge.out_eq _ _ _ _ _ _ _ shapeCasts_S50000_S50000x1 shapeCasts_S132_S1x132

/-- The run, read: the result array at the reference's function of the arguments, the arguments unchanged. -/
theorem run_value : θ_run defs (onTc (τ := τ) (main (F := Ideal))) ⟨m, fun _ => 0, ρ⟩ (fun r => ∀ c : Dev nD,
      r.2.mem ((c.tc : Thread nD τ).loc main_v62) = (Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W6_v62 m ρ c), (h c).2⟩) (run_out m ρ)

end Cert.KernelIdeal.Hand

end
-- ==== Proof.lean ====
/-
  The certificate: a two-layer graph convolution with self loops and a skip projection, as three pipelined
  row-block kernels among host gathers and scatter-adds, computes what the reference computes on whole matrices, at the
  ideal values.

  With deg(r) one plus the number of edges into node r, and c(e) the product of the reciprocal square roots of the
  degrees at the two ends of edge e, a layer maps rows h to  agg(h)(r, n) + h(r, n) / deg(r) + b(n),  where agg(h) gathers
  h at the source of every edge, scales by c and adds up at the targets.  The kernel program computes x·[W1 | Wp] in
  one product and slices it; forms max(layer(x·W1), 0), multiplies it by the top rows of W2 and adds (x·Wp) times the bottom
  rows; and forms the second layer of that, joined with x·Wp.  The reference joins max(layer(x·W1), 0) with x·Wp and
  multiplies by W2.  The two agree because a column of joined weights is a column of one piece, a sum over joined lanes
  splits into the sums over the pieces, and every row-block entry depends on its own row only.  The gathers and
  scatter-adds are the same operations applied to equal arrays and are never opened.  No step needs the inputs finite:
  only commutativity and associativity of the sums are used.

  The three frames: the two kernel programs' are generated; the reference's is its generated run with the result dropped.
  The idealization rewrote nothing, so there is nothing to preserve.
-/
import proofs.«118340_j2843268350769_2_alg».proof.Defs
import proofs.«118340_j2843268350769_2_alg».proof.Proof.Gen.Kernel
import proofs.«118340_j2843268350769_2_alg».proof.Proof.Gen.Kernel.Frame
import proofs.«118340_j2843268350769_2_alg».proof.Proof.Gen.KernelIdeal
import proofs.«118340_j2843268350769_2_alg».proof.Proof.Gen.KernelIdeal.Frame
import proofs.«118340_j2843268350769_2_alg».proof.Proof.Gen.ReferenceIdeal
import proofs.«118340_j2843268350769_2_alg».proof.Proof.Gen.Pre_finite_inputs
import proofs.«118340_j2843268350769_2_alg».proof.Proof.Gen.ReferenceIdeal.Run
import proofs.«118340_j2843268350769_2_alg».proof.Proof.Gen.ReferenceIdeal.Read
import proofs.«118340_j2843268350769_2_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's function of the argument arrays, which agree. -/
theorem algebraic : Cert.algebraic_KernelIdeal_ReferenceIdeal := by
  intro m ρ m' ρ' _ hagree
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq]
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
